-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S256x64 .f32) (main_arg10 : FVec F S256x64 .f32) (main_arg11 : FVec F S64 .f32) (main_v33 : IVec S_ 1) : IVec S_ 1 :=
  let main_v34 : FVec F S256x64 .f32 := Host.absf main_arg9
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S256x64 .f32 := Host.absf main_arg10
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S256x256 .f32) (main_arg7 : FVec F S256x256 .f32) (main_arg8 : FVec F S256 .f32) (main_arg9 : FVec F S256x64 .f32) (main_arg10 : FVec F S256x64 .f32) (main_arg11 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_v33

def fn {F : FTy → Type} [FloatOps F] (main_arg0 : FVec F S100000x256 .f32) (main_arg1 : IVec S800000 32) (main_arg2 : IVec S800000 32) (main_arg3 : FVec F S256x256 .f32) (main_arg4 : FVec F S256x256 .f32) (main_arg5 : FVec F S256 .f32) (main_arg6 : FVec F S256x256 .f32) (main_arg7 : FVec F S256x256 .f32) (main_arg8 : FVec F S256 .f32) (main_arg9 : FVec F S256x64 .f32) (main_arg10 : FVec F S256x64 .f32) (main_arg11 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S1x256 : Shape := ⟨2, ![1, 256]⟩
abbrev S1x64 : Shape := ⟨2, ![1, 64]⟩
abbrev S800000x256 : Shape := ⟨2, ![800000, 256]⟩
abbrev S2000x256 : Shape := ⟨2, ![2000, 256]⟩
abbrev S2000x1 : Shape := ⟨2, ![2000, 1]⟩
abbrev S100000x64 : Shape := ⟨2, ![100000, 64]⟩
abbrev S2000x64 : Shape := ⟨2, ![2000, 64]⟩
abbrev S800000x64 : Shape := ⟨2, ![800000, 64]⟩

abbrev nBuf : Space → Nat
  | .hbm => 77
  | .vmem => 37
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x64, .f32⟩
  | .hbm, ⟨10, _⟩ => ⟨S256x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S100000, .f32⟩
  | .hbm, ⟨16, _⟩ => ⟨S800000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S256x256, .bf16⟩
  | .hbm, ⟨26, _⟩ => ⟨S256x256, .bf16⟩
  | .hbm, ⟨27, _⟩ => ⟨S1x256, .f32⟩
  | .hbm, ⟨28, _⟩ => ⟨S256x256, .bf16⟩
  | .hbm, ⟨29, _⟩ => ⟨S256x256, .bf16⟩
  | .hbm, ⟨30, _⟩ => ⟨S1x256, .f32⟩
  | .hbm, ⟨31, _⟩ => ⟨S256x64, .bf16⟩
  | .hbm, ⟨32, _⟩ => ⟨S256x64, .bf16⟩
  | .hbm, ⟨33, _⟩ => ⟨S1x64, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x256, .f32⟩
  | .hbm, ⟨43, _⟩ => ⟨S_, .f32⟩
  | .hbm, ⟨44, _⟩ => ⟨S100000x256, .f32⟩
  | .hbm, ⟨45, _⟩ => ⟨S800000x1, .i32⟩
  | .hbm, ⟨46, _⟩ => ⟨S100000x256, .f32⟩
  | .hbm, ⟨47, _⟩ => ⟨S100000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S100000x256, .f32⟩
  | .hbm, ⟨59, _⟩ => ⟨S800000x1, .i32⟩
  | .hbm, ⟨60, _⟩ => ⟨S100000x256, .f32⟩
  | .hbm, ⟨61, _⟩ => ⟨S100000x256, .f32⟩
  | .hbm, ⟨62, _⟩ => ⟨S100000x64, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x64, .f32⟩
  | .hbm, ⟨72, _⟩ => ⟨S_, .f32⟩
  | .hbm, ⟨73, _⟩ => ⟨S100000x64, .f32⟩
  | .hbm, ⟨74, _⟩ => ⟨S800000x1, .i32⟩
  | .hbm, ⟨75, _⟩ => ⟨S100000x64, .f32⟩
  | .hbm, ⟨76, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x1, .f32⟩
  | .local _ .vmem, ⟨5, _⟩ => ⟨S2000x1, .f32⟩
  | .local _ .vmem, ⟨6, _⟩ => ⟨S256x256, .bf16⟩
  | .local _ .vmem, ⟨7, _⟩ => ⟨S256x256, .bf16⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S256x256, .bf16⟩
  | .local _ .vmem, ⟨18, _⟩ => ⟨S256x256, .bf16⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256x64, .bf16⟩
  | .local _ .vmem, ⟨25, _⟩ => ⟨S2000x64, .f32⟩
  | .local _ .vmem, ⟨26, _⟩ => ⟨S2000x64, .f32⟩
  | .local _ .vmem, ⟨27, _⟩ => ⟨S2000x256, .f32⟩
  | .local _ .vmem, ⟨28, _⟩ => ⟨S2000x256, .f32⟩
  | .local _ .vmem, ⟨29, _⟩ => ⟨S2000x64, .f32⟩
  | .local _ .vmem, ⟨30, _⟩ => ⟨S2000x64, .f32⟩
  | .local _ .vmem, ⟨31, _⟩ => ⟨S2000x1, .f32⟩
  | .local _ .vmem, ⟨32, _⟩ => ⟨S2000x1, .f32⟩
  | .local _ .vmem, ⟨33, _⟩ => ⟨S256x64, .bf16⟩
  | .local _ .vmem, ⟨34, _⟩ => ⟨S1x64, .f32⟩
  | .local _ .vmem, ⟨35, _⟩ => ⟨S2000x64, .f32⟩
  | .local _ .vmem, ⟨36, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_8 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S256x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  bitsLt_bf16_f32 : FTy.bits .bf16 < FTy.bits .f32
  shapeCasts_S256_S1x256 : S256.ShapeCasts S1x256
  shapeCasts_S64_S1x64 : S64.ShapeCasts S1x64
  bcast_S_S100000x256 : S_.BroadcastsInDim S100000x256 (![] : Fin 0 → Fin S100000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x256_S2000x256_1_0_0_1_n_n_wf : DotDims.WF S2000x256 S256x256 S2000x256 [1] [0] [0] [1] [] []
  dot_S2000x256_S256x64_S2000x64_1_0_0_1_n_n_wf : DotDims.WF S2000x256 S256x64 S2000x64 [1] [0] [0] [1] [] []
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S100000x256.size a
  hwx1_6 : ∀ i : grid1.Coords, EltTy.bits .f32 = 32 ∨ (Rect.block (s := S100000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x64.size a ≤ S256x64.size a
  hwx2_1 : ∀ i : grid2.Coords, EltTy.bits .bf16 = 32 ∨ (Rect.block (s := S256x64) S256x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x64.size a ≤ S256x64.size a
  hwx3_3 : ∀ i : grid3.Coords, EltTy.bits .bf16 = 32 ∨ (Rect.block (s := S256x64) S256x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S100000x64.size a
  hwx3_5 : ∀ i : grid3.Coords, EltTy.bits .f32 = 32 ∨ (Rect.block (s := S100000x64) S2000x64.size (cc3_transform_5 i) (hinb3_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S256x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v39) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v8) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S256x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v17) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v51) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x256 : Shape := ⟨2, ![100000, 256]⟩
abbrev S800000 : Shape := ⟨1, ![800000]⟩
abbrev S256x256 : Shape := ⟨2, ![256, 256]⟩
abbrev S256 : Shape := ⟨1, ![256]⟩
abbrev S256x64 : Shape := ⟨2, ![256, 64]⟩
abbrev S64 : Shape := ⟨1, ![64]⟩
abbrev S_ : Shape := ⟨0, ![]⟩
abbrev S100000 : Shape := ⟨1, ![100000]⟩
abbrev S800000x1 : Shape := ⟨2, ![800000, 1]⟩
abbrev S800000x256 : Shape := ⟨2, ![800000, 256]⟩
abbrev S100000x1 : Shape := ⟨2, ![100000, 1]⟩
abbrev S1x256 : Shape := ⟨2, ![1, 256]⟩
abbrev S100000x64 : Shape := ⟨2, ![100000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x64, .f32⟩
  | .hbm, ⟨10, _⟩ => ⟨S256x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S100000, .f32⟩
  | .hbm, ⟨16, _⟩ => ⟨S800000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x256, .f32⟩
  | .hbm, ⟨33, _⟩ => ⟨S_, .f32⟩
  | .hbm, ⟨34, _⟩ => ⟨S100000x256, .f32⟩
  | .hbm, ⟨35, _⟩ => ⟨S800000x1, .i32⟩
  | .hbm, ⟨36, _⟩ => ⟨S100000x256, .f32⟩
  | .hbm, ⟨37, _⟩ => ⟨S100000x1, .f32⟩
  | .hbm, ⟨38, _⟩ => ⟨S100000x256, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S1x256, .f32⟩
  | .hbm, ⟨44, _⟩ => ⟨S100000x256, .f32⟩
  | .hbm, ⟨45, _⟩ => ⟨S100000x256, .f32⟩
  | .hbm, ⟨46, _⟩ => ⟨S_, .f32⟩
  | .hbm, ⟨47, _⟩ => ⟨S100000x256, .f32⟩
  | .hbm, ⟨48, _⟩ => ⟨S100000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S100000x256, .f32⟩
  | .hbm, ⟨60, _⟩ => ⟨S800000x1, .i32⟩
  | .hbm, ⟨61, _⟩ => ⟨S100000x256, .f32⟩
  | .hbm, ⟨62, _⟩ => ⟨S100000x1, .f32⟩
  | .hbm, ⟨63, _⟩ => ⟨S100000x256, .f32⟩
  | .hbm, ⟨64, _⟩ => ⟨S100000x256, .f32⟩
  | .hbm, ⟨65, _⟩ => ⟨S100000x256, .f32⟩
  | .hbm, ⟨66, _⟩ => ⟨S100000x256, .f32⟩
  | .hbm, ⟨67, _⟩ => ⟨S100000x256, .f32⟩
  | .hbm, ⟨68, _⟩ => ⟨S1x256, .f32⟩
  | .hbm, ⟨69, _⟩ => ⟨S100000x256, .f32⟩
  | .hbm, ⟨70, _⟩ => ⟨S100000x256, .f32⟩
  | .hbm, ⟨71, _⟩ => ⟨S_, .f32⟩
  | .hbm, ⟨72, _⟩ => ⟨S100000x256, .f32⟩
  | .hbm, ⟨73, _⟩ => ⟨S100000x256, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x256, .f32⟩
  | .hbm, ⟨83, _⟩ => ⟨S_, .f32⟩
  | .hbm, ⟨84, _⟩ => ⟨S100000x256, .f32⟩
  | .hbm, ⟨85, _⟩ => ⟨S800000x1, .i32⟩
  | .hbm, ⟨86, _⟩ => ⟨S100000x256, .f32⟩
  | .hbm, ⟨87, _⟩ => ⟨S100000x1, .f32⟩
  | .hbm, ⟨88, _⟩ => ⟨S100000x256, .f32⟩
  | .hbm, ⟨89, _⟩ => ⟨S100000x256, .f32⟩
  | .hbm, ⟨90, _⟩ => ⟨S100000x64, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x256_S100000x256_1_0_0_1_n_n_wf : DotDims.WF S100000x256 S256x256 S100000x256 [1] [0] [0] [1] [] []
  dot_S100000x256_S256x64_S100000x64_1_0_0_1_n_n_wf : DotDims.WF S100000x256 S256x64 S100000x64 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf

class Facts : Prop extends Facts₀ where

variable [Facts]
-- ==== Proof.Finite.lean ====
import proofs.«120476_j4020089389331_2_alg».proof.Pre_finite_inputs
import proofs.«120476_j4020089389331_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic
open Cert.Pre_finite_inputs

/-- The shape of a scalar has exactly one index. -/
instance subsingleton_S_ : Subsingleton S_.Idx := ⟨fun a b => funext fun d => d.elim0⟩

/-- An extended real x whose absolute value max x (-x) lies strictly below +∞ is a real number:
    at x = ⊥ and at x = ⊤ the absolute value is ⊤, which is not below ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 (sign 0, exponent all ones, significand 0) denotes +∞. -/
theorem ofBits_inf : Ideal.ofBits .f32 0x7F800000#32 = ⊤ := by simp [Ideal.ofBits, Ideal.ieee]

/-- One element: if the comparison |x| < +∞ holds (the bit is 1) then x is a real number. -/
theorem real_of_bit (x : Ideal .f32)
    (h : FloatOps.cmpf .olt (FloatOps.hostAbsf x) (FloatOps.ofBits (F := Ideal) .f32 0x7F800000#32) = 1#1) :
    ∃ r : ℝ, x = (r : EReal) := by
  change Ideal.cmp .olt (max (x : EReal) (-(x : EReal))) (Ideal.ofBits .f32 0x7F800000#32) = 1#1 at h
  rw [ofBits_inf] at h
  refine real_of_abs_lt_top x ?_
  by_contra hn
  simp [Ideal.cmp, hn] at h

/-- One array, of any shape s: if the conjunction over all of s of the bits |x i| < +∞ is 1,
    then every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) := by
  intro i
  have hi := Host.reduce_andi_all _ _ hr hu ValueIdx.ix0 e i
  exact real_of_bit (x i) hi

/-- The precondition read back: if the conjunction, over the ten float arrays, of "every entry has
    absolute value below +∞" is the bit 1, then every entry of each of the ten arrays is a real number.
    The two integer arrays a1, a2 do not enter the predicate. -/
theorem real_of_fn [hP : Cert.Pre_finite_inputs.Facts]
    (a0 : FVec Ideal S100000x256 .f32) (a1 : IVec S800000 32) (a2 : IVec S800000 32)
    (a3 : FVec Ideal S256x256 .f32) (a4 : FVec Ideal S256x256 .f32) (a5 : FVec Ideal S256 .f32)
    (a6 : FVec Ideal S256x256 .f32) (a7 : FVec Ideal S256x256 .f32) (a8 : FVec Ideal S256 .f32)
    (a9 : FVec Ideal S256x64 .f32) (a10 : FVec Ideal S256x64 .f32) (a11 : FVec Ideal S64 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, ∃ r : ℝ, a9 i = (r : EReal)) ∧ (∀ i, ∃ r : ℝ, a10 i = (r : EReal))
    ∧ (∀ i, ∃ r : ℝ, a11 i = (r : EReal)) := by
  -- the value of the predicate at the one index of its scalar result
  have e := congrFun h ValueIdx.ix0
  unfold Cert.Pre_finite_inputs.fn Cert.Pre_finite_inputs.fn_part1 Cert.Pre_finite_inputs.fn_part2 at e
  dsimp only at e
  -- a conjunction of bits is 1 exactly when each bit is 1
  simp only [andi, IntOp.andi_eq_one] at e
  obtain ⟨⟨⟨⟨⟨⟨⟨⟨⟨e0, e3⟩, e4⟩, e5⟩, e6⟩, e7⟩, e8⟩, e9⟩, e10⟩, e11⟩ := e
  exact ⟨real_of_all a0 _ _ _ e0, real_of_all a3 _ _ _ e3, real_of_all a4 _ _ _ e4, real_of_all a5 _ _ _ e5,
    real_of_all a6 _ _ _ e6, real_of_all a7 _ _ _ e7, real_of_all a8 _ _ _ e8, real_of_all a9 _ _ _ e9,
    real_of_all a10 _ _ _ e10, real_of_all a11 _ _ _ e11⟩

end Cert.Finite

end
-- ==== Proof.KernelRun.lean ====
/-
  The idealized kernel's run with its result array named.

  Every weakly fair execution of @main terminates without a fault; the result array ends holding what the last
  boundary of the run holds at it (the fourth region's output array after its write-backs), and every argument array
  ends as launched. The statement is the frame's with one more conjunct, read off the same final thread state.
-/
import proofs.«120476_j4020089389331_2_alg».proof.Proof.KernelIdealFrameP

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array at the last boundary's contents and the arguments as launched. -/
theorem run_named : θ_run defs (onTc (τ := τ) (main (F := F))) ⟨m, fun _ => 0, ρ⟩ (fun r => ∀ c : Dev nD,
      r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelIdeal.GenP

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.KernelBody.lean ====
/-
  The kernels' bodies read at an entry, on the extended reals.

  A layer kernel's block of rows: entry (p, q) is the product of the block's row p with column q of the first weight
  matrix, plus the product of the row's neighbour sums scaled by the row's inverse degree with the second weight
  matrix, plus the bias, clamped below at zero. The projection kernel's entry is one product; the combining kernel's
  is a product plus the scaled, already projected neighbour sum plus the bias. A change of float format is the identity.
-/
import proofs.«120476_j4020089389331_2_alg».proof.Proof.Gen.KernelIdeal.Skeleton
import proofs.«120476_j4020089389331_2_alg».proof.Proof.LibMatProd
import proofs.«120476_j4020089389331_2_alg».proof.Proof.LibBroadcastTo
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- The kernels' products are plain ones: rows times columns, no batch axis. -/
theorem dot256_plain : dot_S2000x256_S256x256_S2000x256_1_0_0_1_n_n = DotDims.plain 2000 256 256 := rfl
theorem dot64_plain : dot_S2000x256_S256x64_S2000x64_1_0_0_1_n_n = DotDims.plain 2000 256 64 := rfl

/-- The first layer's block at entry (p, q). -/
theorem pay0_apply (x0 x1 : Vec Ideal S2000x256 .f32) (x2 : Vec Ideal S2000x1 .f32) (x3 x4 : Vec Ideal S256x256 .bf16)
    (x5 : Vec Ideal S1x256 .f32) (p : Fin 2000) (q : Fin 256) :
    k0_pay1 x0 x1 x2 x3 x4 x5 (ix2 p q)
      = max (((∑ k : Fin 256, x0 (ix2 p k) * x3 (ix2 k q))
          + ∑ k : Fin 256, (x1 (ix2 p k) * x2 (ix2 p 0)) * x4 (ix2 k q)) + x5 (ix2 0 q)) 0 := by
  unfold k0_pay1
  simp only [shapeCast_self, dot256_plain]
  rw [maximumf_apply, addf_apply, addf_apply, broadcast_apply, Cert.BroadcastTo.row_apply]
  unfold Idealize.ShloMosaic.matmul
  rw [Cert.MatProd.matmul_plain_zero_apply, Cert.MatProd.matmul_plain_zero_apply]
  simp only [truncf_apply, mulf_apply, Cert.BroadcastTo.col_apply, Ideal.ofBits_def, Ideal.ofBits_zero_f32]

/-- The second layer's block at entry (p, q): the same body. -/
theorem pay1_apply (x0 x1 : Vec Ideal S2000x256 .f32) (x2 : Vec Ideal S2000x1 .f32) (x3 x4 : Vec Ideal S256x256 .bf16)
    (x5 : Vec Ideal S1x256 .f32) (p : Fin 2000) (q : Fin 256) :
    k1_pay1 x0 x1 x2 x3 x4 x5 (ix2 p q)
      = max (((∑ k : Fin 256, x0 (ix2 p k) * x3 (ix2 k q))
          + ∑ k : Fin 256, (x1 (ix2 p k) * x2 (ix2 p 0)) * x4 (ix2 k q)) + x5 (ix2 0 q)) 0 := by
  unfold k1_pay1
  simp only [shapeCast_self, dot256_plain]
  rw [maximumf_apply, addf_apply, addf_apply, broadcast_apply, Cert.BroadcastTo.row_apply]
  unfold Idealize.ShloMosaic.matmul
  rw [Cert.MatProd.matmul_plain_zero_apply, Cert.MatProd.matmul_plain_zero_apply]
  simp only [truncf_apply, mulf_apply, Cert.BroadcastTo.col_apply, Ideal.ofBits_def, Ideal.ofBits_zero_f32]

/-- The projection's block at entry (p, q): one product. -/
theorem pay2_apply (x0 : Vec Ideal S2000x256 .f32) (x3 : Vec Ideal S256x64 .bf16) (p : Fin 2000) (q : Fin 64) :
    k2_pay1 x0 x3 (ix2 p q) = ∑ k : Fin 256, x0 (ix2 p k) * x3 (ix2 k q) := by
  unfold k2_pay1
  simp only [shapeCast_self, dot64_plain]
  unfold Idealize.ShloMosaic.matmul
  rw [Cert.MatProd.matmul_plain_zero_apply]
  simp only [truncf_apply]

/-- The last layer's block at entry (p, q): own rows times the weights, plus the projected neighbour sum scaled by the
    row's inverse degree, plus the bias. -/
theorem pay3_apply (x0 : Vec Ideal S2000x256 .f32) (x3 : Vec Ideal S256x64 .bf16) (x6 : Vec Ideal S2000x64 .f32)
    (x8 : Vec Ideal S2000x1 .f32) (x13 : Vec Ideal S1x64 .f32) (p : Fin 2000) (q : Fin 64) :
    k3_pay1 x0 x3 x6 x8 x13 (ix2 p q)
      = ((∑ k : Fin 256, x0 (ix2 p k) * x3 (ix2 k q)) + x6 (ix2 p q) * x8 (ix2 p 0)) + x13 (ix2 0 q) := by
  unfold k3_pay1
  simp only [shapeCast_self, dot64_plain]
  rw [addf_apply, addf_apply, mulf_apply, Cert.BroadcastTo.row_apply, Cert.BroadcastTo.col_apply]
  unfold Idealize.ShloMosaic.matmul
  rw [Cert.MatProd.matmul_plain_zero_apply]
  simp only [truncf_apply]

end Cert.KernelIdeal.Body

end
-- ==== Proof.LibSage.lean ====
/-
  Mean-aggregating graph layers on the extended reals.

  A node's neighbour sum adds, from zero, the rows of the edges selected for it; a layer multiplies a node's own row by
  one weight matrix, its neighbour sum scaled by the node's inverse degree by another, adds the two products and a
  bias, and clamps at zero. The last layer has no clamp, and may apply the neighbour weights BEFORE the rows are
  summed: for real entries the two orders agree, because a finite sum of reals commutes with a product by a real
  (`affinePre_eq`). On the extended reals this needs every entry to be a real number, which is why the entries'
  realness is carried through the layers (`isReal_layer`, `isReal_nsum`, `isReal_invdeg`).
-/
import Mathlib.Tactic
import Idealize.ShloMosaic.PureOps.Ideal

noncomputable section

namespace Sage

open Idealize.ShloMosaic

variable {N Eg D C : ℕ}

/-- The extended real `x` is a real number. -/
def IsReal (x : EReal) : Prop := ∃ r : ℝ, x = (r : EReal)

/-- Node `n`'s neighbour sum at feature `d`: from zero, the entries `h (row e) d` of the edges `e` selected for `n`. -/
def nsum (sel : Fin Eg → Fin N → Prop) [∀ e n, Decidable (sel e n)] (row : Fin Eg → Fin N)
    (h : Fin N → Fin D → EReal) (n : Fin N) (d : Fin D) : EReal :=
  0 + ∑ e : Fin Eg, if sel e n then h (row e) d else 0

/-- One over the number of edges selected for `n`, that number clamped below at one. -/
def invdeg (sel : Fin Eg → Fin N → Prop) [∀ e n, Decidable (sel e n)] (n : Fin N) : EReal :=
  Ideal.div 1 (max (0 + ∑ e : Fin Eg, if sel e n then (1 : EReal) else 0) 1)

/-- A matrix product, entry by entry. -/
def lin (h : Fin N → Fin D → EReal) (W : Fin D → Fin C → EReal) (i : Fin N) (j : Fin C) : EReal :=
  ∑ k : Fin D, h i k * W k j

/-- A layer before its clamp: own rows times `Ws`, plus scaled neighbour sums times `Wn`, plus the bias. -/
def affine (h a : Fin N → Fin D → EReal) (inv : Fin N → EReal) (Ws Wn : Fin D → Fin C → EReal) (b : Fin C → EReal)
    (i : Fin N) (j : Fin C) : EReal :=
  (lin h Ws i j + lin (fun n k => a n k * inv n) Wn i j) + b j

/-- A layer: the affine part clamped below at zero. -/
def layer (h a : Fin N → Fin D → EReal) (inv : Fin N → EReal) (Ws Wn : Fin D → Fin C → EReal) (b : Fin C → EReal)
    (i : Fin N) (j : Fin C) : EReal :=
  max (affine h a inv Ws Wn b i j) 0

/-- The last layer when the neighbour weights were applied before the rows were summed: `p` is the neighbour sum of
    the projected rows. -/
def affinePre (h : Fin N → Fin D → EReal) (p : Fin N → Fin C → EReal) (inv : Fin N → EReal) (Ws : Fin D → Fin C → EReal)
    (b : Fin C → EReal) (i : Fin N) (j : Fin C) : EReal :=
  (lin h Ws i j + p i j * inv i) + b j

/-! ### Realness is closed under the operations the layers use -/

theorem isReal_coe (r : ℝ) : IsReal (r : EReal) := ⟨r, rfl⟩

theorem isReal_zero : IsReal (0 : EReal) := ⟨0, EReal.coe_zero.symm⟩

theorem isReal_one : IsReal (1 : EReal) := ⟨1, EReal.coe_one.symm⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The larger of two reals, taken in the extended reals, is the larger real. -/
theorem coe_max_real (a b : ℝ) : max (a : EReal) (b : EReal) = ((max a b : ℝ) : EReal) := by
  rcases le_total a b with hab | hab
  · rw [max_eq_right hab, max_eq_right (EReal.coe_le_coe_iff.mpr hab)]
  · rw [max_eq_left hab, max_eq_left (EReal.coe_le_coe_iff.mpr hab)]

theorem isReal_max {x y : EReal} (hx : IsReal x) (hy : IsReal y) : IsReal (max x y) := by
  obtain ⟨a, rfl⟩ := hx
  obtain ⟨b, rfl⟩ := hy
  exact ⟨max a b, coe_max_real a b⟩

theorem isReal_ite (p : Prop) [Decidable p] {x y : EReal} (hx : IsReal x) (hy : IsReal y) :
    IsReal (if p then x else y) := by
  by_cases hp : p
  · rw [if_pos hp]; exact hx
  · rw [if_neg hp]; exact hy

/-- The coercion of a finite sum of reals is the sum of the coercions. -/
theorem coe_sum_real {ι : Type*} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a s ha ih
    rw [Finset.sum_insert ha, Finset.sum_insert ha, EReal.coe_add, ih]

theorem isReal_sum {ι : Type*} (s : Finset ι) (f : ι → EReal) (hf : ∀ i, IsReal (f i)) :
    IsReal (∑ i ∈ s, f i) := by
  choose g hg using hf
  refine ⟨∑ i ∈ s, g i, ?_⟩
  rw [coe_sum_real]
  exact Finset.sum_congr rfl fun i _ => hg i

/-! ### The layers' entries are real -/

theorem isReal_nsum (sel : Fin Eg → Fin N → Prop) [∀ e n, Decidable (sel e n)] (row : Fin Eg → Fin N)
    (h : Fin N → Fin D → EReal) (hh : ∀ n d, IsReal (h n d)) (n : Fin N) (d : Fin D) :
    IsReal (nsum sel row h n d) := by
  unfold nsum
  exact isReal_add isReal_zero (isReal_sum _ _ fun e => isReal_ite _ (hh (row e) d) isReal_zero)

theorem isReal_invdeg (sel : Fin Eg → Fin N → Prop) [∀ e n, Decidable (sel e n)] (n : Fin N) :
    IsReal (invdeg sel n) := by
  unfold invdeg
  have hcount : IsReal (0 + ∑ e : Fin Eg, if sel e n then (1 : EReal) else 0) :=
    isReal_add isReal_zero (isReal_sum _ _ fun e => isReal_ite _ isReal_one isReal_zero)
  obtain ⟨c, hc⟩ := hcount
  have hpos : max c 1 ≠ 0 := ne_of_gt (lt_of_lt_of_le one_pos (le_max_right c 1))
  refine ⟨1 / max c 1, ?_⟩
  rw [hc, ← EReal.coe_one, coe_max_real, Ideal.div_coe hpos, EReal.coe_one, one_mul]

theorem isReal_lin (h : Fin N → Fin D → EReal) (W : Fin D → Fin C → EReal) (hh : ∀ i k, IsReal (h i k))
    (hW : ∀ k j, IsReal (W k j)) (i : Fin N) (j : Fin C) : IsReal (lin h W i j) := by
  unfold lin
  exact isReal_sum _ _ fun k => isReal_mul (hh i k) (hW k j)

theorem isReal_affine (h a : Fin N → Fin D → EReal) (inv : Fin N → EReal) (Ws Wn : Fin D → Fin C → EReal)
    (b : Fin C → EReal) (hh : ∀ i k, IsReal (h i k)) (ha : ∀ i k, IsReal (a i k)) (hinv : ∀ n, IsReal (inv n))
    (hWs : ∀ k j, IsReal (Ws k j)) (hWn : ∀ k j, IsReal (Wn k j)) (hb : ∀ j, IsReal (b j)) (i : Fin N)
    (j : Fin C) : IsReal (affine h a inv Ws Wn b i j) := by
  unfold affine
  exact isReal_add
    (isReal_add (isReal_lin h Ws hh hWs i j)
      (isReal_lin (fun n k => a n k * inv n) Wn (fun n k => isReal_mul (ha n k) (hinv n)) hWn i j))
    (hb j)

theorem isReal_layer (h a : Fin N → Fin D → EReal) (inv : Fin N → EReal) (Ws Wn : Fin D → Fin C → EReal)
    (b : Fin C → EReal) (hh : ∀ i k, IsReal (h i k)) (ha : ∀ i k, IsReal (a i k)) (hinv : ∀ n, IsReal (inv n))
    (hWs : ∀ k j, IsReal (Ws k j)) (hWn : ∀ k j, IsReal (Wn k j)) (hb : ∀ j, IsReal (b j)) (i : Fin N)
    (j : Fin C) : IsReal (layer h a inv Ws Wn b i j) := by
  unfold layer
  exact isReal_max (isReal_affine h a inv Ws Wn b hh ha hinv hWs hWn hb i j) isReal_zero

/-! ### Applying the neighbour weights before or after the rows are summed -/

/-- A neighbour sum of real entries, as the coercion of the real neighbour sum. -/
theorem nsum_coe (sel : Fin Eg → Fin N → Prop) [∀ e n, Decidable (sel e n)] (row : Fin Eg → Fin N)
    (hr : Fin N → Fin D → ℝ) (n : Fin N) (d : Fin D) :
    nsum sel row (fun m k => (hr m k : EReal)) n d
      = ((∑ e : Fin Eg, if sel e n then hr (row e) d else 0 : ℝ) : EReal) := by
  unfold nsum
  rw [zero_add, coe_sum_real]
  refine Finset.sum_congr rfl fun e _ => ?_
  by_cases hs : sel e n
  · rw [if_pos hs, if_pos hs]
  · rw [if_neg hs, if_neg hs, EReal.coe_zero]

/-- A matrix product of real entries, as the coercion of the real matrix product. -/
theorem lin_coe (hr : Fin N → Fin D → ℝ) (wr : Fin D → Fin C → ℝ) (i : Fin N) (j : Fin C) :
    lin (fun m k => (hr m k : EReal)) (fun k c => (wr k c : EReal)) i j
      = ((∑ k : Fin D, hr i k * wr k j : ℝ) : EReal) := by
  unfold lin
  rw [coe_sum_real]
  exact Finset.sum_congr rfl fun k _ => (EReal.coe_mul _ _).symm

/-- The real identity: summing the projected rows and scaling, against projecting the scaled sums. -/
theorem real_sum_swap (sel : Fin Eg → Fin N → Prop) [∀ e n, Decidable (sel e n)] (row : Fin Eg → Fin N)
    (hr : Fin N → Fin D → ℝ) (wr : Fin D → Fin C → ℝ) (r : ℝ) (i : Fin N) (j : Fin C) :
    (∑ e : Fin Eg, if sel e i then ∑ k : Fin D, hr (row e) k * wr k j else 0) * r
      = ∑ k : Fin D, ((∑ e : Fin Eg, if sel e i then hr (row e) k else 0) * r) * wr k j := by
  have hR : ∀ k : Fin D, ((∑ e : Fin Eg, if sel e i then hr (row e) k else 0) * r) * wr k j
      = ∑ e : Fin Eg, (if sel e i then hr (row e) k * wr k j else 0) * r := by
    intro k
    rw [Finset.sum_mul, Finset.sum_mul]
    refine Finset.sum_congr rfl fun e _ => ?_
    by_cases hs : sel e i
    · rw [if_pos hs, if_pos hs]; ring
    · rw [if_neg hs, if_neg hs]; ring
  have hL : ∀ e : Fin Eg, (if sel e i then ∑ k : Fin D, hr (row e) k * wr k j else 0) * r
      = ∑ k : Fin D, (if sel e i then hr (row e) k * wr k j else 0) * r := by
    intro e
    by_cases hs : sel e i
    · rw [if_pos hs, Finset.sum_mul]
      exact Finset.sum_congr rfl fun k _ => by rw [if_pos hs]
    · rw [if_neg hs, zero_mul]
      exact (Finset.sum_eq_zero fun k _ => by rw [if_neg hs, zero_mul]).symm
  calc (∑ e : Fin Eg, if sel e i then ∑ k : Fin D, hr (row e) k * wr k j else 0) * r
      = ∑ e : Fin Eg, ∑ k : Fin D, (if sel e i then hr (row e) k * wr k j else 0) * r := by
        rw [Finset.sum_mul]
        exact Finset.sum_congr rfl fun e _ => hL e
    _ = ∑ k : Fin D, ∑ e : Fin Eg, (if sel e i then hr (row e) k * wr k j else 0) * r := Finset.sum_comm
    _ = ∑ k : Fin D, ((∑ e : Fin Eg, if sel e i then hr (row e) k else 0) * r) * wr k j :=
        Finset.sum_congr rfl fun k _ => (hR k).symm

/-- For real entries, scaling the neighbour sum of the projected rows is projecting the scaled neighbour sums. -/
theorem nsum_lin_swap (sel : Fin Eg → Fin N → Prop) [∀ e n, Decidable (sel e n)] (row : Fin Eg → Fin N)
    (h : Fin N → Fin D → EReal) (inv : Fin N → EReal) (Wn : Fin D → Fin C → EReal)
    (hh : ∀ n d, IsReal (h n d)) (hinv : ∀ n, IsReal (inv n)) (hWn : ∀ k j, IsReal (Wn k j)) (i : Fin N)
    (j : Fin C) :
    nsum sel row (lin h Wn) i j * inv i = lin (fun n k => nsum sel row h n k * inv n) Wn i j := by
  choose hr hhr using hh
  choose ir hir using hinv
  choose wr hwr using hWn
  obtain rfl : h = fun m k => (hr m k : EReal) := funext fun m => funext fun k => hhr m k
  obtain rfl : inv = fun m => (ir m : EReal) := funext fun m => hir m
  obtain rfl : Wn = fun k c => (wr k c : EReal) := funext fun k => funext fun c => hwr k c
  have hlin : lin (fun m k => (hr m k : EReal)) (fun k c => (wr k c : EReal))
      = fun m c => ((∑ k : Fin D, hr m k * wr k c : ℝ) : EReal) :=
    funext fun m => funext fun c => lin_coe hr wr m c
  have hscaled : (fun n k => nsum sel row (fun m k => (hr m k : EReal)) n k * (ir n : EReal))
      = fun n k => (((∑ e : Fin Eg, if sel e n then hr (row e) k else 0) * ir n : ℝ) : EReal) :=
    funext fun n => funext fun k => by rw [nsum_coe, EReal.coe_mul]
  rw [hlin, hscaled, nsum_coe, lin_coe, ← EReal.coe_mul, real_sum_swap]

theorem affinePre_eq (sel : Fin Eg → Fin N → Prop) [∀ e n, Decidable (sel e n)] (row : Fin Eg → Fin N)
    (h : Fin N → Fin D → EReal) (inv : Fin N → EReal) (Ws Wn : Fin D → Fin C → EReal) (b : Fin C → EReal)
    (hh : ∀ n d, IsReal (h n d)) (hinv : ∀ n, IsReal (inv n)) (hWn : ∀ k j, IsReal (Wn k j)) (i : Fin N)
    (j : Fin C) :
    affinePre h (nsum sel row (lin h Wn)) inv Ws b i j = affine h (nsum sel row h) inv Ws Wn b i j := by
  unfold affinePre affine
  rw [nsum_lin_swap sel row h inv Wn hh hinv hWn i j]

end Sage

end
-- ==== Proof.LibScatterAddRows.lean ====
/-
  An accumulating scatter of whole rows, read at an entry.

  The operand is an `N × C` array, the updates an `E × C` array, and update row `e` is added onto the operand row
  whose number is the `e`-th scatter index (one signed integer per update row); a row whose index is negative or
  `≥ N` is dropped. On the extended reals the result at `(n, c)` is therefore the operand's entry plus the sum, over
  the update rows `e` whose index is `n`, of the update entry `(e, c)`: the columns never mix.

  Everything is general in the three extents and in the width of the index integers.
-/
import Idealize.ShloMosaic.PureOps.Ideal
import Idealize.ShloMosaic.PureOps.Contract
import Idealize.ShloMosaic.Lib.ValueIdx

noncomputable section

namespace LibScatterAddRows

open Idealize.ShloMosaic Idealize.ShloMosaic.ValueIdx

variable {N E C w : Nat}

/-- The dimension numbers of a row scatter: operand `[N, C]`, one index per update row held as `[E, 1]`, updates
    `[E, C]`; the update's axis 1 is the window, the operand's axis 0 is the one the index names. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

/-- On the row axis the window of update entry `(e, b)` starts at the `e`-th scatter index, read signed. -/
theorem start_row (idx : IVec ⟨2, ![E, 1]⟩ w) (e : Fin E) (b : Fin C) :
    (rowDims N E C wf).start (ix2 e b) idx 0 = (idx (ix2 e (0 : Fin 1))).toInt := by
  unfold ScatterDims.start
  rw [dif_pos (show (0 : Fin 2) ∈ (rowDims N E C wf).scatterDimsToOperandDims from List.mem_singleton.mpr rfl)]
  have hsi : (rowDims N E C wf).siIdx (ix2 e b) ⟨List.idxOf (0 : Fin 2) (rowDims N E C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis it starts at zero. -/
theorem start_col (idx : IVec ⟨2, ![E, 1]⟩ w) (e : Fin E) (b : Fin C) :
    (rowDims N E C wf).start (ix2 e b) idx 1 = 0 := by
  unfold ScatterDims.start
  rw [dif_neg (show ¬ (1 : Fin 2) ∈ (rowDims N E C wf).scatterDimsToOperandDims from by
    intro h; exact absurd (congrArg Fin.val (List.mem_singleton.mp h)) Nat.one_ne_zero)]

/-- The window coordinate on the row axis is zero … -/
theorem window_row (e : Fin E) (b : Fin C) : (rowDims N E C wf).window (ix2 e b) 0 = 0 := by
  unfold ScatterDims.window
  rw [dif_neg (show ¬ (0 : Fin 2) ∈ (rowDims N E C wf).sKept from by
    show ¬ (0 : Fin 2) ∈ ([1] : List (Fin 2))
    intro h; exact absurd (congrArg Fin.val (List.mem_singleton.mp h)) Nat.zero_ne_one)]

/-- … and on the column axis it is the update entry's column. -/
theorem window_col (e : Fin E) (b : Fin C) : (rowDims N E C wf).window (ix2 e b) 1 = b.val := by
  unfold ScatterDims.window
  rw [dif_pos (show (1 : Fin 2) ∈ (rowDims N E C wf).sKept from by
    show (1 : Fin 2) ∈ ([1] : List (Fin 2))
    exact List.mem_singleton.mpr rfl)]
  rfl

/-- WHERE AN UPDATE ENTRY LANDS: entry `(e, b)` lands on operand entry `(n, c)` exactly when the `e`-th index is
    `n` and the columns agree. -/
theorem resultIdx?_iff (idx : IVec ⟨2, ![E, 1]⟩ w) (e : Fin E) (b : Fin C) (n : Fin N) (c : Fin C) :
    (rowDims N E C wf).resultIdx? (ix2 e b) idx = some (ix2 n c)
      ↔ (idx (ix2 e (0 : Fin 1))).toInt = (n.val : Int) ∧ b = c := by
  have hs0 := start_row wf idx e b
  have hs1 := start_col wf idx e b
  have hw0 := window_row wf e b
  have hw1 := window_col wf e b
  unfold ScatterDims.resultIdx?
  constructor
  · intro H
    split at H
    · rename_i h
      have H' := Option.some.inj H
      have h0 : ((rowDims N E C wf).start (ix2 e b) idx 0 + (rowDims N E C wf).window (ix2 e b) 0).toNat = n.val :=
        congrArg (fun f => (f 0).val) H'
      have h1 : ((rowDims N E C wf).start (ix2 e b) idx 1 + (rowDims N E C wf).window (ix2 e b) 1).toNat = c.val :=
        congrArg (fun f => (f 1).val) H'
      have hh0 := (h 0).1
      rw [hs0, hw0] at h0 hh0
      rw [hs1, hw1] at h1
      exact ⟨by omega, Fin.ext (by omega)⟩
    · exact absurd H (by simp)
  · rintro ⟨h0, rfl⟩
    have hn : n.val < N := n.isLt
    have hb : b.val < C := b.isLt
    have h : ∀ a, 0 ≤ (rowDims N E C wf).start (ix2 e b) idx a + (rowDims N E C wf).window (ix2 e b) a
        ∧ (rowDims N E C wf).start (ix2 e b) idx a + (rowDims N E C wf).window (ix2 e b) a
          < (⟨2, ![N, C]⟩ : Shape).size a :=
      Fin.forall_fin_two.2 ⟨by
        rw [hs0, hw0, h0]
        refine ⟨by omega, ?_⟩
        show (n.val : Int) + ((0 : Nat) : Int) < ((N : Nat) : Int)
        omega, by
        rw [hs1, hw1]
        refine ⟨by omega, ?_⟩
        show (0 : Int) + ((b.val : Nat) : Int) < ((C : Nat) : Int)
        omega⟩
    rw [dif_pos h]
    refine congrArg some (funext ?_)
    refine Fin.forall_fin_two.2 ⟨Fin.ext ?_, Fin.ext ?_⟩
    · show ((rowDims N E C wf).start (ix2 e b) idx 0 + (rowDims N E C wf).window (ix2 e b) 0).toNat = n.val
      rw [hs0, hw0, h0]; omega
    · show ((rowDims N E C wf).start (ix2 e b) idx 1 + (rowDims N E C wf).window (ix2 e b) 1).toNat = b.val
      rw [hs1, hw1]; omega

/-- THE ROW SCATTER READ AT AN ENTRY, on the extended reals: the operand's entry plus the update entries of the
    same column in the rows whose index is `n`. -/
theorem hostScatterAdd_rows (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  refine congrArg (x (ix2 n c) + ·) ?_
  rw [Finset.sum_filter, sum_idx2]
  refine Finset.sum_congr rfl fun e _ => ?_
  simp only [resultIdx?_iff]
  by_cases hq : (idx (ix2 e (0 : Fin 1))).toInt = (n.val : Int)
  · simp only [hq, true_and, Finset.sum_ite_eq', Finset.mem_univ, if_true]
  · simp only [hq, false_and, if_false, Finset.sum_const_zero]

/-- The same for the host operation as a program prints it, read at the exact instance. -/
theorem scatterAdd_rows (x : FVec Ideal ⟨2, ![N, C]⟩ .f32) (idx : IVec ⟨2, ![E, 1]⟩ w)
    (upd : FVec Ideal ⟨2, ![E, C]⟩ .f32) (n : Fin N) (c : Fin C) :
    Host.scatterAdd (F := Ideal) (rowDims N E C wf) x idx upd (ix2 n c)
      = x (ix2 n c) + ∑ e : Fin E, if (idx (ix2 e (0 : Fin 1))).toInt = (n.val : Int) then upd (ix2 e c) else 0 :=
  hostScatterAdd_rows wf x idx upd n c

end LibScatterAddRows

end
-- ==== Proof.LibScatterAddVec.lean ====
/-
  An accumulating scatter of scalars into a vector, read at an entry.

  The operand is a vector of `N` entries, the updates a vector of `E` scalars, and update `e` is added onto the operand
  entry whose number is the `e`-th scatter index (one signed integer per update, held as an `E × 1` array); an update
  whose index is negative or `≥ N` is dropped. On the extended reals the result at `n` is therefore the operand's entry
  plus the sum of the updates `e` whose index is `n`.

  Everything is general in the two extents and in the width of the index integers.
-/
import Idealize.ShloMosaic.PureOps.Ideal
import Idealize.ShloMosaic.PureOps.Contract
import Idealize.ShloMosaic.Lib.ValueIdx

noncomputable section

namespace LibScatterAddVec

open Idealize.ShloMosaic Idealize.ShloMosaic.ValueIdx

variable {N E w : Nat}

/-- The dimension numbers of a scalar scatter into a vector: operand `[N]`, one index per update held as `[E, 1]`,
    updates `[E]`; no window axis, and the operand's one axis is the one the index names. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf : ScatterDims.WF ⟨1, ![N]⟩ ⟨2, ![E, 1]⟩ ⟨1, ![E]⟩ [] [0] [0] 1)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The window of update `e` starts at the `e`-th scatter index, read signed. -/
theorem start_at (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- There is no window axis: the window coordinate is zero. -/
theorem window_at (e : Fin E) : (vecDims N E wf).window (ix1 e) 0 = 0 := by
  unfold ScatterDims.window
  rw [dif_neg (show ¬ (0 : Fin 1) ∈ (vecDims N E wf).sKept from by
    show ¬ (0 : Fin 1) ∈ ([] : List (Fin 1))
    exact List.not_mem_nil)]

/-- WHERE AN UPDATE LANDS: update `e` lands on operand entry `n` exactly when the `e`-th index is `n`. -/
theorem resultIdx?_iff (idx : IVec ⟨2, ![E, 1]⟩ w) (e : Fin E) (n : Fin N) :
    (vecDims N E wf).resultIdx? (ix1 e) idx = some (ix1 n)
      ↔ (idx (ix2 e (0 : Fin 1))).toInt = (n.val : Int) := by
  have hs0 := start_at wf idx e
  have hw0 := window_at wf e
  unfold ScatterDims.resultIdx?
  constructor
  · intro H
    split at H
    · rename_i h
      have H' := Option.some.inj H
      have h0 : ((vecDims N E wf).start (ix1 e) idx 0 + (vecDims N E wf).window (ix1 e) 0).toNat = n.val :=
        congrArg (fun f => (f 0).val) H'
      have hh0 := (h 0).1
      rw [hs0, hw0] at h0 hh0
      omega
    · exact absurd H (by simp)
  · intro h0
    have hn : n.val < N := n.isLt
    have h : ∀ a, 0 ≤ (vecDims N E wf).start (ix1 e) idx a + (vecDims N E wf).window (ix1 e) a
        ∧ (vecDims N E wf).start (ix1 e) idx a + (vecDims N E wf).window (ix1 e) a
          < (⟨1, ![N]⟩ : Shape).size a :=
      Fin.forall_fin_one.2 ⟨by rw [hs0, hw0, h0]; omega, by
        rw [hs0, hw0, h0]
        show (n.val : Int) + ((0 : Nat) : Int) < ((N : Nat) : Int)
        omega⟩
    rw [dif_pos h]
    refine congrArg some (funext ?_)
    refine Fin.forall_fin_one.2 (Fin.ext ?_)
    show ((vecDims N E wf).start (ix1 e) idx 0 + (vecDims N E wf).window (ix1 e) 0).toNat = n.val
    rw [hs0, hw0, h0]; omega

/-- THE SCALAR SCATTER READ AT AN ENTRY, on the extended reals: the operand's entry plus the updates whose index is
    `n`. -/
theorem hostScatterAdd_vec (x : (⟨1, ![N]⟩ : Shape).Idx → EReal) (idx : IVec ⟨2, ![E, 1]⟩ w)
    (upd : (⟨1, ![E]⟩ : Shape).Idx → EReal) (n : Fin N) :
    Ideal.hostScatterAdd (vecDims N E wf) x idx upd (ix1 n)
      = x (ix1 n) + ∑ e : Fin E, if (idx (ix2 e (0 : Fin 1))).toInt = (n.val : Int) then upd (ix1 e) else 0 := by
  unfold Ideal.hostScatterAdd
  refine congrArg (x (ix1 n) + ·) ?_
  rw [Finset.sum_filter, sum_idx1]
  refine Finset.sum_congr rfl fun e _ => ?_
  simp only [resultIdx?_iff]

/-- The same for the host operation as a program prints it, read at the exact instance. -/
theorem scatterAdd_vec (x : FVec Ideal ⟨1, ![N]⟩ .f32) (idx : IVec ⟨2, ![E, 1]⟩ w)
    (upd : FVec Ideal ⟨1, ![E]⟩ .f32) (n : Fin N) :
    Host.scatterAdd (F := Ideal) (vecDims N E wf) x idx upd (ix1 n)
      = x (ix1 n) + ∑ e : Fin E, if (idx (ix2 e (0 : Fin 1))).toInt = (n.val : Int) then upd (ix1 e) else 0 :=
  hostScatterAdd_vec wf x idx upd n

end LibScatterAddVec

end
-- ==== Proof.LibRowGather.lean ====
/-
  Whole rows of a table gathered at integer start indices, read at an entry.

  `x[idx]` of a table `x : [N, C]` at an integer array lowers to a gather that collapses the row axis, takes a slice of
  one row and all `C` columns, and reads the row's start off the index array. Result entry `(r, k)` — or `(r, e, k)`
  when the index array has two axes — is the table at column `k` of the row named by the start index, read as a signed
  integer and brought into `[0, N - 1]`: the gather clamps every start so that the slice fits. Stated for an index array
  laid out `[R, 1]` (one start per result row) and `[R, J, 1]` (a `J`-tuple of starts per result row), general in every
  extent and in the integers' width.
-/
import Idealize.ShloMosaic.PureOps.ShapeOps
import Idealize.ShloMosaic.PureOps.Dims
import Idealize.ShloMosaic.Lib.ValueIdx

noncomputable section

namespace Cert.RowGather

open Idealize.ShloMosaic Idealize.ShloMosaic.ValueIdx

variable {α : Type}

/-- The dimension numbers of a row gather at starts laid out `[R, 1]`. -/
abbrev dims2 (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, k)` of the gathered rows is the table at column `k` of the clamped row `idx[r, 0]`. -/
theorem rows2_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (dims2 N C R wf) x idx (ix2 r k)
      = x (ix2 (⟨min (idx (ix2 r (0 : Fin 1))).toInt.toNat (N - 1), by omega⟩ : Fin N) k) := by
  unfold Host.gather
  refine congrArg x (funext fun a => Fin.ext ?_)
  match a with
  | ⟨0, _⟩ =>
    show (dims2 N C R wf).start (ix2 r k) idx 0 + (dims2 N C R wf).batchCoord (ix2 r k) 0 + (dims2 N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 N C R wf).startIndexMap from List.mem_singleton.mpr rfl)]
    have hsi : (dims2 N C R wf).siIdx (ix2 r k) ⟨List.idxOf (0 : Fin 2) (dims2 N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (dims2 N C R wf).start (ix2 r k) idx 1 + (dims2 N C R wf).batchCoord (ix2 r k) 1 + (dims2 N C R wf).offCoord (ix2 r k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

/-- The dimension numbers of a row gather at starts laid out `[R, J, 1]`. -/
abbrev dims3 (N C R J : Nat) (wf : GatherDims.WF ⟨2, ![N, C]⟩ ⟨3, ![R, J, 1]⟩ ⟨3, ![R, J, C]⟩ [2] [0] [] [0] [] 2 ![1, C]) :
    GatherDims ⟨2, ![N, C]⟩ ⟨3, ![R, J, 1]⟩ ⟨3, ![R, J, C]⟩ where
  offsetDims := [2]
  collapsedSliceDims := [0]
  operandBatchingDims := []
  startIndicesBatchingDims := []
  startIndexMap := [0]
  indexVectorDim := 2
  sliceSizes := ![1, C]
  wf := wf

/-- Entry `(r, e, k)` of the gathered rows is the table at column `k` of the clamped row `idx[r, e, 0]`. -/
theorem rows3_apply {N C R J w : Nat} (hN : 0 < N)
    (wf : GatherDims.WF ⟨2, ![N, C]⟩ ⟨3, ![R, J, 1]⟩ ⟨3, ![R, J, C]⟩ [2] [0] [] [0] [] 2 ![1, C])
    (x : (⟨2, ![N, C]⟩ : Shape).Idx → α) (idx : IVec ⟨3, ![R, J, 1]⟩ w) (r : Fin R) (e : Fin J) (k : Fin C) :
    Host.gather (dims3 N C R J wf) x idx (ix3 r e k)
      = x (ix2 (⟨min (idx (ix3 r e (0 : Fin 1))).toInt.toNat (N - 1), by omega⟩ : Fin N) k) := by
  unfold Host.gather
  refine congrArg x (funext fun a => Fin.ext ?_)
  match a with
  | ⟨0, _⟩ =>
    show (dims3 N C R J wf).start (ix3 r e k) idx 0 + (dims3 N C R J wf).batchCoord (ix3 r e k) 0 + (dims3 N C R J wf).offCoord (ix3 r e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims3 N C R J wf).startIndexMap from List.mem_singleton.mpr rfl)]
    have hsi : (dims3 N C R J wf).siIdx (ix3 r e k) ⟨List.idxOf (0 : Fin 2) (dims3 N C R J wf).startIndexMap,
        List.idxOf_lt_length_iff.2 (List.mem_singleton.mpr rfl)⟩ = ix3 r e (0 : Fin 1) := by
      funext b; refine Fin.ext ?_
      match b with
      | ⟨0, _⟩ => rfl
      | ⟨1, _⟩ => rfl
      | ⟨2, _⟩ => rfl
    rw [hsi]
    rfl
  | ⟨1, _⟩ =>
    show (dims3 N C R J wf).start (ix3 r e k) idx 1 + (dims3 N C R J wf).batchCoord (ix3 r e k) 1 + (dims3 N C R J wf).offCoord (ix3 r e k) 1 = _
    rw [GatherDims.batchCoord_eq_zero _ _ _ List.not_mem_nil]
    unfold GatherDims.start
    rw [dif_neg (show ¬ (1 : Fin 2) ∈ ([0] : List (Fin 2)) by decide)]
    unfold GatherDims.offCoord
    rw [dif_pos ((GatherDims.mem_sKept _ _).mpr ⟨(show ¬ (1 : Fin 2) ∈ ([0] : List (Fin 2)) by decide), List.not_mem_nil⟩)]
    simp only [Nat.zero_add]
    rfl

end Cert.RowGather

end
-- ==== Proof.SageArr.lean ====
/-
  The neighbour sum and the inverse degree as the host computes them, read at an entry on the extended reals.

  Gathering the rows named by one index array and adding them, with a scatter, onto the rows named by another, from
  an all-zero array, leaves at (n, d) the sum over the edges whose target index is n of the source row's entry d — the
  neighbour sum. Scattering ones the same way counts a node's edges; one over that count clamped below at one is the
  inverse degree. General in the feature width; the node and edge counts are this graph's.
-/
import proofs.«120476_j4020089389331_2_alg».proof.Proof.LibSage
import proofs.«120476_j4020089389331_2_alg».proof.Proof.LibScatterAddRows
import proofs.«120476_j4020089389331_2_alg».proof.Proof.LibScatterAddVec
import proofs.«120476_j4020089389331_2_alg».proof.Proof.LibRowGather
import Idealize.ShloMosaic.Lib.ValueIdx
import Idealize.ShloMosaic.PureOps.Ideal.Laws

noncomputable section

namespace Sage

open Idealize.ShloMosaic Idealize.ShloMosaic.ValueIdx

/-- A matrix as a function of its two coordinates. -/
abbrev cur2 {A B : Nat} (x : (⟨2, ![A, B]⟩ : Shape).Idx → EReal) : Fin A → Fin B → EReal := fun a b => x (ix2 a b)

/-- Edge e is selected for node n when its target index, read signed, is n. -/
def selOf (didx : IVec ⟨2, ![800000, 1]⟩ 32) (e : Fin 800000) (n : Fin 100000) : Prop :=
  (didx (ix2 e (0 : Fin 1))).toInt = (n.val : Int)

instance (didx : IVec ⟨2, ![800000, 1]⟩ 32) (e : Fin 800000) (n : Fin 100000) : Decidable (selOf didx e n) :=
  inferInstanceAs (Decidable (_ = _))

/-- Edge e's source row: its source index read signed and brought into the table's rows. -/
def rowOf (sidx : IVec ⟨2, ![800000, 1]⟩ 32) (e : Fin 800000) : Fin 100000 :=
  ⟨min (sidx (ix2 e (0 : Fin 1))).toInt.toNat (100000 - 1), by omega⟩

/-- THE NEIGHBOUR SUM: rows gathered at the source indices and scatter-added at the target indices onto zeros. -/
theorem scatter_gather_apply {C : Nat}
    (swf : ScatterDims.WF ⟨2, ![100000, C]⟩ ⟨2, ![800000, 1]⟩ ⟨2, ![800000, C]⟩ [1] [0] [0] 1)
    (gwf : GatherDims.WF ⟨2, ![100000, C]⟩ ⟨2, ![800000, 1]⟩ ⟨2, ![800000, C]⟩ [1] [0] [] [0] [] 1 ![1, C])
    (z : FVec Ideal ⟨2, ![100000, C]⟩ .f32) (hz : ∀ i, z i = 0) (didx sidx : IVec ⟨2, ![800000, 1]⟩ 32)
    (h : FVec Ideal ⟨2, ![100000, C]⟩ .f32) (n : Fin 100000) (d : Fin C) :
    Host.scatterAdd (F := Ideal) (LibScatterAddRows.rowDims 100000 800000 C swf) z didx
        (Host.gather (Cert.RowGather.dims2 100000 C 800000 gwf) h sidx) (ix2 n d)
      = nsum (selOf didx) (rowOf sidx) (cur2 h) n d := by
  rw [LibScatterAddRows.scatterAdd_rows, hz]
  unfold nsum
  refine congrArg (0 + ·) (Finset.sum_congr rfl fun e _ => ?_)
  rw [Cert.RowGather.rows2_apply (by omega)]
  rfl

/-- THE INVERSE DEGREE: one over the scatter-added ones, clamped below at one. -/
theorem count_apply
    (wf : ScatterDims.WF ⟨1, ![100000]⟩ ⟨2, ![800000, 1]⟩ ⟨1, ![800000]⟩ [] [0] [0] 1)
    (z : FVec Ideal ⟨1, ![100000]⟩ .f32) (hz : ∀ i, z i = 0) (didx : IVec ⟨2, ![800000, 1]⟩ 32)
    (u : FVec Ideal ⟨1, ![800000]⟩ .f32) (hu : ∀ i, u i = 1) (n : Fin 100000) :
    Ideal.div 1 (max (Host.scatterAdd (F := Ideal) (LibScatterAddVec.vecDims 100000 800000 wf) z didx u (ix1 n)) 1)
      = invdeg (selOf didx) n := by
  rw [LibScatterAddVec.scatterAdd_vec, hz]
  unfold invdeg
  refine congrArg (fun s => Ideal.div 1 (max (0 + s) 1)) (Finset.sum_congr rfl fun e _ => ?_)
  rw [hu]
  rfl

/-- The float word of one is the real one. -/
theorem ofBits_one : Ideal.ofBits .f32 0x3F800000#32 = (1 : EReal) := by
  simp [Ideal.ofBits, Ideal.ieee]
  rw [← EReal.coe_mul]
  norm_num

end Sage

end
-- ==== Proof.KernelArr.lean ====
/-
  The three whole-array functions the kernels' regions compute, index by index on the extended reals: a layer (own rows
  and scaled neighbour sums through two weight matrices, a bias, the clamp at zero), the projection (one matrix
  product), and the last layer with the neighbour sums already projected. The inverse degrees come as a column and a
  bias as a row, as the kernels' windows hold them.
-/
import proofs.«120476_j4020089389331_2_alg».proof.KernelIdeal
import proofs.«120476_j4020089389331_2_alg».proof.Proof.SageArr
import Idealize.ShloMosaic.Lib.ValueIdx

noncomputable section

namespace Cert.KernelIdeal.Blocks

open Idealize.ShloMosaic Idealize.ShloMosaic.ValueIdx Cert.KernelIdeal
open Sage (cur2)

/-- One layer as a whole-array function: own rows, neighbour sums, the inverse degrees as a column, two weight
    matrices, the bias as a row. -/
def layerArr (x0 x1 : S100000x256.Idx → EReal) (x2 : S100000x1.Idx → EReal) (x3 x4 : S256x256.Idx → EReal)
    (x5 : S1x256.Idx → EReal) : S100000x256.Idx → EReal :=
  fun i => Sage.layer (cur2 x0) (cur2 x1) (fun n => x2 (ix2 n 0)) (cur2 x3) (cur2 x4) (fun j => x5 (ix2 0 j)) (i 0) (i 1)

/-- The projection as a whole-array function: rows times a weight matrix. -/
def projArr (x0 : S100000x256.Idx → EReal) (x1 : S256x64.Idx → EReal) : S100000x64.Idx → EReal :=
  fun i => Sage.lin (cur2 x0) (cur2 x1) (i 0) (i 1)

/-- The last layer as a whole-array function: own rows times the weights, plus the projected neighbour sums scaled by
    the inverse degrees, plus the bias. -/
def preArr (x0 : S100000x256.Idx → EReal) (x1 : S100000x64.Idx → EReal) (x2 : S100000x1.Idx → EReal)
    (x3 : S256x64.Idx → EReal) (x4 : S1x64.Idx → EReal) : S100000x64.Idx → EReal :=
  fun i => Sage.affinePre (cur2 x0) (cur2 x1) (fun n => x2 (ix2 n 0)) (cur2 x3) (fun j => x4 (ix2 0 j)) (i 0) (i 1)

/-- The origin of a block, as the library's lemmas about whole-block loads and stores ask for it. -/
theorem hz : (![0, 0] : Fin 2 → Nat) = fun _ => 0 := funext fun a => by fin_cases a <;> rfl

end Cert.KernelIdeal.Blocks

end
-- ==== Proof.KernelRegion0.lean ====
/-
  Region 0 (the first layer), from any contents V of the buffers at its entry: the 50 grid points each write back one block of 2000 rows, block t of the whole-array layer of the arrays the region finds; the blocks cover the output array, so it ends holding that function.
-/
import proofs.«120476_j4020089389331_2_alg».proof.Proof.KernelIdealFrameP
import proofs.«120476_j4020089389331_2_alg».proof.Proof.KernelBody
import proofs.«120476_j4020089389331_2_alg».proof.Proof.KernelArr
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Sage (cur2)
open Cert.KernelIdeal Cert.KernelIdeal.Gen Cert.KernelIdeal.GenP Cert.KernelIdeal.Body

variable (V : (c : Dev nD) → (b : Ref sig .tc) → Buf (Elt Ideal) ((c : Thread nD τ).loc b))

/-- Entry (p, q) of a block is entry i of the whole-array layer when the block's row p is the array's row i 0 and the
    weights and the bias are read at column i 1. -/
theorem block0_eq (x0 x1 : Vec Ideal S2000x256 .f32) (x2 : Vec Ideal S2000x1 .f32) (x3 x4 : Vec Ideal S256x256 .bf16)
    (x5 : Vec Ideal S1x256 .f32)
    (A0 A1 : S100000x256.Idx → EReal) (A2 : S100000x1.Idx → EReal) (A3 A4 : S256x256.Idx → EReal) (A5 : S1x256.Idx → EReal)
    (p : Fin 2000) (q : Fin 256) (i : S100000x256.Idx)
    (h0 : ∀ k : Fin 256, x0 (ix2 p k) = A0 (ix2 (i 0) k)) (h1 : ∀ k : Fin 256, x1 (ix2 p k) = A1 (ix2 (i 0) k))
    (h2 : x2 (ix2 p 0) = A2 (ix2 (i 0) 0)) (h3 : ∀ k : Fin 256, x3 (ix2 k q) = A3 (ix2 k (i 1)))
    (h4 : ∀ k : Fin 256, x4 (ix2 k q) = A4 (ix2 k (i 1))) (h5 : x5 (ix2 0 q) = A5 (ix2 0 (i 1))) :
    k0_pay1 x0 x1 x2 x3 x4 x5 (ix2 p q) = layerArr A0 A1 A2 A3 A4 A5 i := by
  rw [pay0_apply]
  show _ = max (((∑ k : Fin 256, A0 (ix2 (i 0) k) * A3 (ix2 k (i 1)))
      + ∑ k : Fin 256, (A1 (ix2 (i 0) k) * A2 (ix2 (i 0) 0)) * A4 (ix2 k (i 1))) + A5 (ix2 0 (i 1))) 0
  simp only [h0, h1, h2, h3, h4, h5]

/-- The array row that row p of point t's block is. -/
def row0 (t : Fin cfg0.N) (p : Fin 2000) : Fin 100000 :=
  ⟨t.val * 2000 + p.val, by have h : t.val < 50 := t.isLt; have := p.isLt; omega⟩

/-! The printed index maps of region 0, decided over its grid: a row-tiled window's block at point t is block t, the
    weights and the bias stay at block zero. -/
theorem idx_0_0 : ∀ t : Fin cfg0.N, win0_0.index t (0 : Fin 2) = t.val ∧ win0_0.index t (1 : Fin 2) = 0 :=
  (by decide +kernel : ∀ t : Fin grid0.N, _)
theorem idx_0_1 : ∀ t : Fin cfg0.N, win0_1.index t (0 : Fin 2) = t.val ∧ win0_1.index t (1 : Fin 2) = 0 :=
  (by decide +kernel : ∀ t : Fin grid0.N, _)
theorem idx_0_2 : ∀ t : Fin cfg0.N, win0_2.index t (0 : Fin 2) = t.val ∧ win0_2.index t (1 : Fin 2) = 0 :=
  (by decide +kernel : ∀ t : Fin grid0.N, _)
theorem idx_0_3 : ∀ t : Fin cfg0.N, win0_3.index t (0 : Fin 2) = 0 ∧ win0_3.index t (1 : Fin 2) = 0 :=
  (by decide +kernel : ∀ t : Fin grid0.N, _)
theorem idx_0_4 : ∀ t : Fin cfg0.N, win0_4.index t (0 : Fin 2) = 0 ∧ win0_4.index t (1 : Fin 2) = 0 :=
  (by decide +kernel : ∀ t : Fin grid0.N, _)
theorem idx_0_5 : ∀ t : Fin cfg0.N, win0_5.index t (0 : Fin 2) = 0 ∧ win0_5.index t (1 : Fin 2) = 0 :=
  (by decide +kernel : ∀ t : Fin grid0.N, _)
theorem idx_0_6 : ∀ t : Fin cfg0.N, win0_6.index t (0 : Fin 2) = t.val ∧ win0_6.index t (1 : Fin 2) = 0 :=
  (by decide +kernel : ∀ t : Fin grid0.N, _)

/-! Each window's block at point t, read where the body reads it, is the array the region finds, read at the row and
    column the block covers. -/
theorem read0_0 (c : Dev nD) (t : Fin cfg0.N) (p : Fin 2000) (k : Fin 256) :
    iblk0 V c 0 t (ix2 p k) = V c (Pipeline.arrRef spec0 0) (ix2 (row0 t p) k) := by
  obtain ⟨ew0, ew1⟩ := idx_0_0 t
  show V c (Pipeline.arrRef spec0 0) (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 256 + 1 * k.val = k.val; omega

theorem read0_1 (c : Dev nD) (t : Fin cfg0.N) (p : Fin 2000) (k : Fin 256) :
    iblk0 V c 1 t (ix2 p k) = V c (Pipeline.arrRef spec0 1) (ix2 (row0 t p) k) := by
  obtain ⟨ew0, ew1⟩ := idx_0_1 t
  show V c (Pipeline.arrRef spec0 1) (((cfg0.win 1).blk t).view.emb (ix2 p k)) = _
  refine congrArg _ (funext fun a => Fin.ext ?_)
  match a with
  | ⟨0, _⟩ => show win0_1.index t (0 : Fin 2) * 2000 + 1 * p.val = t.val * 2000 + p.val; omega
  | ⟨1, _⟩ => show win0_1.index t (1 : Fin 2) * 256 + 1 * k.val = k.val; omega

theorem read0_2 (c : Dev nD) (t : Fin cfg0.N) (p : Fin 2000) :
    iblk0 V c 2 t (ix2 p 0) = V c (Pipeline.arrRef spec0 2) (ix2 (row0 t p) 0) := by
  obtain ⟨ew0, ew1⟩ := idx_0_2 t
  show V c (Pipeline.arrRef spec0 2) (((cfg0.win 2).blk t).view.emb (ix2 p 0)) = _
  refine congrArg _ (funext fun a => Fin.ext ?_)
  match a with
  | ⟨0, _⟩ => show win0_2.index t (0 : Fin 2) * 2000 + 1 * p.val = t.val * 2000 + p.val; omega
  | ⟨1, _⟩ => show win0_2.index t (1 : Fin 2) * 1 + 1 * 0 = 0; omega

theorem read0_3 (c : Dev nD) (t : Fin cfg0.N) (k : Fin 256) (q : Fin 256) :
    iblk0 V c 3 t (ix2 k q) = V c (Pipeline.arrRef spec0 3) (ix2 k q) := by
  obtain ⟨ew0, ew1⟩ := idx_0_3 t
  show V c (Pipeline.arrRef spec0 3) (((cfg0.win 3).blk t).view.emb (ix2 k q)) = _
  refine congrArg _ (funext fun a => Fin.ext ?_)
  match a with
  | ⟨0, _⟩ => show win0_3.index t (0 : Fin 2) * 256 + 1 * k.val = k.val; omega
  | ⟨1, _⟩ => show win0_3.index t (1 : Fin 2) * 256 + 1 * q.val = q.val; omega

theorem read0_4 (c : Dev nD) (t : Fin cfg0.N) (k : Fin 256) (q : Fin 256) :
    iblk0 V c 4 t (ix2 k q) = V c (Pipeline.arrRef spec0 4) (ix2 k q) := by
  obtain ⟨ew0, ew1⟩ := idx_0_4 t
  show V c (Pipeline.arrRef spec0 4) (((cfg0.win 4).blk t).view.emb (ix2 k q)) = _
  refine congrArg _ (funext fun a => Fin.ext ?_)
  match a with
  | ⟨0, _⟩ => show win0_4.index t (0 : Fin 2) * 256 + 1 * k.val = k.val; omega
  | ⟨1, _⟩ => show win0_4.index t (1 : Fin 2) * 256 + 1 * q.val = q.val; omega

theorem read0_5 (c : Dev nD) (t : Fin cfg0.N) (q : Fin 256) :
    iblk0 V c 5 t (ix2 0 q) = V c (Pipeline.arrRef spec0 5) (ix2 0 q) := by
  obtain ⟨ew0, ew1⟩ := idx_0_5 t
  show V c (Pipeline.arrRef spec0 5) (((cfg0.win 5).blk t).view.emb (ix2 0 q)) = _
  refine congrArg _ (funext fun a => Fin.ext ?_)
  match a with
  | ⟨0, _⟩ => show win0_5.index t (0 : Fin 2) * 1 + 1 * 0 = 0; omega
  | ⟨1, _⟩ => show win0_5.index t (1 : Fin 2) * 256 + 1 * q.val = q.val; omega

/-- Where entry (p, q) of the output's block at point t sits in the output array. -/
theorem emb0 (t : Fin cfg0.N) (p : Fin 2000) (q : Fin 256) :
    ((cfg0.win 6).blk t).view.emb (ix2 p q) = ix2 (row0 t p) q := by
  obtain ⟨ew0, ew1⟩ := idx_0_6 t
  refine funext fun a => Fin.ext ?_
  match a with
  | ⟨0, _⟩ => show win0_6.index t (0 : Fin 2) * 2000 + 1 * p.val = t.val * 2000 + p.val; omega
  | ⟨1, _⟩ => show win0_6.index t (1 : Fin 2) * 256 + 1 * q.val = q.val; omega

/-- What point t writes back is block t of the whole-array function of the arrays the region finds. -/
theorem flushed0_eq (c : Dev nD) (t : Fin cfg0.N) :
    (dat0 V c).flushed 6 t = ((cfg0.win 6).blk t).view.read (Elt Ideal)
      (layerArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q)
    = layerArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (((cfg0.win 6).blk t).view.emb (ix2 p q))
  rw [emb0]
  exact block0_eq (iblk0 V c 0 t) (iblk0 V c 1 t) (iblk0 V c 2 t) (iblk0 V c 3 t) (iblk0 V c 4 t) (iblk0 V c 5 t)
    (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
    p q (ix2 (row0 t p) q) (fun k => read0_0 V c t p k) (fun k => read0_1 V c t p k) (read0_2 V c t p) (fun k => read0_3 V c t k q) (fun k => read0_4 V c t k q) (read0_5 V c t q)

/-- An index of the output array lies in point t's block iff each coordinate lies in the block's range. -/
theorem mem_blk0 (t : Fin cfg0.N) (i : S100000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v28).slice (win0_6.rect t)).set ↔ _
  rw [View.set_slice_whole, Rect.mem_set_unit]
  exact Iff.rfl

/-- Every row lies in some point's block: row r in the block of point r / 2000. -/
theorem cover0 (i : S100000x256.Idx) :
    ∃ t : Fin cfg0.N, (cfg0.win 6).flush t = true ∧ i ∈ ((cfg0.win 6).blk t).view.set := by
  have hi0 : (i 0).val < 100000 := (i 0).isLt
  have hi1 : (i 1).val < 256 := (i 1).isLt
  have ht : (i 0).val / 2000 < 50 := by omega
  refine ⟨⟨(i 0).val / 2000, ht⟩, flush0_6 _, ?_⟩
  rw [mem_blk0]
  obtain ⟨f0, f1⟩ := idx_0_6 ⟨(i 0).val / 2000, ht⟩
  have f0' : win0_6.index ⟨(i 0).val / 2000, ht⟩ (0 : Fin 2) = (i 0).val / 2000 := f0
  intro a
  match a with
  | ⟨0, _⟩ =>
    show win0_6.index ⟨(i 0).val / 2000, ht⟩ (0 : Fin 2) * 2000 ≤ (i 0).val
      ∧ (i 0).val < win0_6.index ⟨(i 0).val / 2000, ht⟩ (0 : Fin 2) * 2000 + 2000
    rw [f0']; omega
  | ⟨1, _⟩ =>
    show win0_6.index ⟨(i 0).val / 2000, ht⟩ (1 : Fin 2) * 256 ≤ (i 1).val
      ∧ (i 1).val < win0_6.index ⟨(i 0).val / 2000, ht⟩ (1 : Fin 2) * 256 + 256
    rw [f1]; omega

/-- THE OUTPUT ARRAY of region 0 after its write-backs: the whole-array function of the arrays the region finds. -/
theorem final0 (c : Dev nD) : (dat0 V c).arrAt 6 cfg0.N = layerArr (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 V c).arrAt_eq_of_cover 6 _ (fun t _ => flushed0_eq V c t) (cover0)

end Cert.KernelIdeal.Blocks

end
-- ==== Proof.KernelRegion1.lean ====
/-
  Region 1 (the second layer), from any contents V of the buffers at its entry: the 50 grid points each write back one block of 2000 rows, block t of the whole-array layer of the arrays the region finds; the blocks cover the output array, so it ends holding that function.
-/
import proofs.«120476_j4020089389331_2_alg».proof.Proof.KernelIdealFrameP
import proofs.«120476_j4020089389331_2_alg».proof.Proof.KernelBody
import proofs.«120476_j4020089389331_2_alg».proof.Proof.KernelArr
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Sage (cur2)
open Cert.KernelIdeal Cert.KernelIdeal.Gen Cert.KernelIdeal.GenP Cert.KernelIdeal.Body

variable (V : (c : Dev nD) → (b : Ref sig .tc) → Buf (Elt Ideal) ((c : Thread nD τ).loc b))

/-- Entry (p, q) of a block is entry i of the whole-array layer when the block's row p is the array's row i 0 and the
    weights and the bias are read at column i 1. -/
theorem block1_eq (x0 x1 : Vec Ideal S2000x256 .f32) (x2 : Vec Ideal S2000x1 .f32) (x3 x4 : Vec Ideal S256x256 .bf16)
    (x5 : Vec Ideal S1x256 .f32)
    (A0 A1 : S100000x256.Idx → EReal) (A2 : S100000x1.Idx → EReal) (A3 A4 : S256x256.Idx → EReal) (A5 : S1x256.Idx → EReal)
    (p : Fin 2000) (q : Fin 256) (i : S100000x256.Idx)
    (h0 : ∀ k : Fin 256, x0 (ix2 p k) = A0 (ix2 (i 0) k)) (h1 : ∀ k : Fin 256, x1 (ix2 p k) = A1 (ix2 (i 0) k))
    (h2 : x2 (ix2 p 0) = A2 (ix2 (i 0) 0)) (h3 : ∀ k : Fin 256, x3 (ix2 k q) = A3 (ix2 k (i 1)))
    (h4 : ∀ k : Fin 256, x4 (ix2 k q) = A4 (ix2 k (i 1))) (h5 : x5 (ix2 0 q) = A5 (ix2 0 (i 1))) :
    k1_pay1 x0 x1 x2 x3 x4 x5 (ix2 p q) = layerArr A0 A1 A2 A3 A4 A5 i := by
  rw [pay1_apply]
  show _ = max (((∑ k : Fin 256, A0 (ix2 (i 0) k) * A3 (ix2 k (i 1)))
      + ∑ k : Fin 256, (A1 (ix2 (i 0) k) * A2 (ix2 (i 0) 0)) * A4 (ix2 k (i 1))) + A5 (ix2 0 (i 1))) 0
  simp only [h0, h1, h2, h3, h4, h5]

/-- The array row that row p of point t's block is. -/
def row1 (t : Fin cfg1.N) (p : Fin 2000) : Fin 100000 :=
  ⟨t.val * 2000 + p.val, by have h : t.val < 50 := t.isLt; have := p.isLt; omega⟩

/-! The printed index maps of region 1, decided over its grid: a row-tiled window's block at point t is block t, the
    weights and the bias stay at block zero. -/
theorem idx_1_0 : ∀ t : Fin cfg1.N, win1_0.index t (0 : Fin 2) = t.val ∧ win1_0.index t (1 : Fin 2) = 0 :=
  (by decide +kernel : ∀ t : Fin grid1.N, _)
theorem idx_1_1 : ∀ t : Fin cfg1.N, win1_1.index t (0 : Fin 2) = t.val ∧ win1_1.index t (1 : Fin 2) = 0 :=
  (by decide +kernel : ∀ t : Fin grid1.N, _)
theorem idx_1_2 : ∀ t : Fin cfg1.N, win1_2.index t (0 : Fin 2) = t.val ∧ win1_2.index t (1 : Fin 2) = 0 :=
  (by decide +kernel : ∀ t : Fin grid1.N, _)
theorem idx_1_3 : ∀ t : Fin cfg1.N, win1_3.index t (0 : Fin 2) = 0 ∧ win1_3.index t (1 : Fin 2) = 0 :=
  (by decide +kernel : ∀ t : Fin grid1.N, _)
theorem idx_1_4 : ∀ t : Fin cfg1.N, win1_4.index t (0 : Fin 2) = 0 ∧ win1_4.index t (1 : Fin 2) = 0 :=
  (by decide +kernel : ∀ t : Fin grid1.N, _)
theorem idx_1_5 : ∀ t : Fin cfg1.N, win1_5.index t (0 : Fin 2) = 0 ∧ win1_5.index t (1 : Fin 2) = 0 :=
  (by decide +kernel : ∀ t : Fin grid1.N, _)
theorem idx_1_6 : ∀ t : Fin cfg1.N, win1_6.index t (0 : Fin 2) = t.val ∧ win1_6.index t (1 : Fin 2) = 0 :=
  (by decide +kernel : ∀ t : Fin grid1.N, _)

/-! Each window's block at point t, read where the body reads it, is the array the region finds, read at the row and
    column the block covers. -/
theorem read1_0 (c : Dev nD) (t : Fin cfg1.N) (p : Fin 2000) (k : Fin 256) :
    iblk1 V c 0 t (ix2 p k) = V c (Pipeline.arrRef spec1 0) (ix2 (row1 t p) k) := by
  obtain ⟨ew0, ew1⟩ := idx_1_0 t
  show V c (Pipeline.arrRef spec1 0) (((cfg1.win 0).blk t).view.emb (ix2 p k)) = _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 256 + 1 * k.val = k.val; omega

theorem read1_1 (c : Dev nD) (t : Fin cfg1.N) (p : Fin 2000) (k : Fin 256) :
    iblk1 V c 1 t (ix2 p k) = V c (Pipeline.arrRef spec1 1) (ix2 (row1 t p) k) := by
  obtain ⟨ew0, ew1⟩ := idx_1_1 t
  show V c (Pipeline.arrRef spec1 1) (((cfg1.win 1).blk t).view.emb (ix2 p k)) = _
  refine congrArg _ (funext fun a => Fin.ext ?_)
  match a with
  | ⟨0, _⟩ => show win1_1.index t (0 : Fin 2) * 2000 + 1 * p.val = t.val * 2000 + p.val; omega
  | ⟨1, _⟩ => show win1_1.index t (1 : Fin 2) * 256 + 1 * k.val = k.val; omega

theorem read1_2 (c : Dev nD) (t : Fin cfg1.N) (p : Fin 2000) :
    iblk1 V c 2 t (ix2 p 0) = V c (Pipeline.arrRef spec1 2) (ix2 (row1 t p) 0) := by
  obtain ⟨ew0, ew1⟩ := idx_1_2 t
  show V c (Pipeline.arrRef spec1 2) (((cfg1.win 2).blk t).view.emb (ix2 p 0)) = _
  refine congrArg _ (funext fun a => Fin.ext ?_)
  match a with
  | ⟨0, _⟩ => show win1_2.index t (0 : Fin 2) * 2000 + 1 * p.val = t.val * 2000 + p.val; omega
  | ⟨1, _⟩ => show win1_2.index t (1 : Fin 2) * 1 + 1 * 0 = 0; omega

theorem read1_3 (c : Dev nD) (t : Fin cfg1.N) (k : Fin 256) (q : Fin 256) :
    iblk1 V c 3 t (ix2 k q) = V c (Pipeline.arrRef spec1 3) (ix2 k q) := by
  obtain ⟨ew0, ew1⟩ := idx_1_3 t
  show V c (Pipeline.arrRef spec1 3) (((cfg1.win 3).blk t).view.emb (ix2 k q)) = _
  refine congrArg _ (funext fun a => Fin.ext ?_)
  match a with
  | ⟨0, _⟩ => show win1_3.index t (0 : Fin 2) * 256 + 1 * k.val = k.val; omega
  | ⟨1, _⟩ => show win1_3.index t (1 : Fin 2) * 256 + 1 * q.val = q.val; omega

theorem read1_4 (c : Dev nD) (t : Fin cfg1.N) (k : Fin 256) (q : Fin 256) :
    iblk1 V c 4 t (ix2 k q) = V c (Pipeline.arrRef spec1 4) (ix2 k q) := by
  obtain ⟨ew0, ew1⟩ := idx_1_4 t
  show V c (Pipeline.arrRef spec1 4) (((cfg1.win 4).blk t).view.emb (ix2 k q)) = _
  refine congrArg _ (funext fun a => Fin.ext ?_)
  match a with
  | ⟨0, _⟩ => show win1_4.index t (0 : Fin 2) * 256 + 1 * k.val = k.val; omega
  | ⟨1, _⟩ => show win1_4.index t (1 : Fin 2) * 256 + 1 * q.val = q.val; omega

theorem read1_5 (c : Dev nD) (t : Fin cfg1.N) (q : Fin 256) :
    iblk1 V c 5 t (ix2 0 q) = V c (Pipeline.arrRef spec1 5) (ix2 0 q) := by
  obtain ⟨ew0, ew1⟩ := idx_1_5 t
  show V c (Pipeline.arrRef spec1 5) (((cfg1.win 5).blk t).view.emb (ix2 0 q)) = _
  refine congrArg _ (funext fun a => Fin.ext ?_)
  match a with
  | ⟨0, _⟩ => show win1_5.index t (0 : Fin 2) * 1 + 1 * 0 = 0; omega
  | ⟨1, _⟩ => show win1_5.index t (1 : Fin 2) * 256 + 1 * q.val = q.val; omega

/-- Where entry (p, q) of the output's block at point t sits in the output array. -/
theorem emb1 (t : Fin cfg1.N) (p : Fin 2000) (q : Fin 256) :
    ((cfg1.win 6).blk t).view.emb (ix2 p q) = ix2 (row1 t p) q := by
  obtain ⟨ew0, ew1⟩ := idx_1_6 t
  refine funext fun a => Fin.ext ?_
  match a with
  | ⟨0, _⟩ => show win1_6.index t (0 : Fin 2) * 2000 + 1 * p.val = t.val * 2000 + p.val; omega
  | ⟨1, _⟩ => show win1_6.index t (1 : Fin 2) * 256 + 1 * q.val = q.val; omega

/-- What point t writes back is block t of the whole-array function of the arrays the region finds. -/
theorem flushed1_eq (c : Dev nD) (t : Fin cfg1.N) :
    (dat1 V c).flushed 6 t = ((cfg1.win 6).blk t).view.read (Elt Ideal)
      (layerArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S2000x256) hz, View.ld_unit_zero (S := S2000x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = layerArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb (ix2 p q))
  rw [emb1]
  exact block1_eq (iblk1 V c 0 t) (iblk1 V c 1 t) (iblk1 V c 2 t) (iblk1 V c 3 t) (iblk1 V c 4 t) (iblk1 V c 5 t)
    (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))
    p q (ix2 (row1 t p) q) (fun k => read1_0 V c t p k) (fun k => read1_1 V c t p k) (read1_2 V c t p) (fun k => read1_3 V c t k q) (fun k => read1_4 V c t k q) (read1_5 V c t q)

/-- An index of the output array lies in point t's block iff each coordinate lies in the block's range. -/
theorem mem_blk1 (t : Fin cfg1.N) (i : S100000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v39).slice (win1_6.rect t)).set ↔ _
  rw [View.set_slice_whole, Rect.mem_set_unit]
  exact Iff.rfl

/-- Every row lies in some point's block: row r in the block of point r / 2000. -/
theorem cover1 (i : S100000x256.Idx) :
    ∃ t : Fin cfg1.N, (cfg1.win 6).flush t = true ∧ i ∈ ((cfg1.win 6).blk t).view.set := by
  have hi0 : (i 0).val < 100000 := (i 0).isLt
  have hi1 : (i 1).val < 256 := (i 1).isLt
  have ht : (i 0).val / 2000 < 50 := by omega
  refine ⟨⟨(i 0).val / 2000, ht⟩, flush1_6 _, ?_⟩
  rw [mem_blk1]
  obtain ⟨f0, f1⟩ := idx_1_6 ⟨(i 0).val / 2000, ht⟩
  have f0' : win1_6.index ⟨(i 0).val / 2000, ht⟩ (0 : Fin 2) = (i 0).val / 2000 := f0
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [f0']; omega
  | ⟨1, _⟩ =>
    show win1_6.index ⟨(i 0).val / 2000, ht⟩ (1 : Fin 2) * 256 ≤ (i 1).val
      ∧ (i 1).val < win1_6.index ⟨(i 0).val / 2000, ht⟩ (1 : Fin 2) * 256 + 256
    rw [f1]; omega

/-- THE OUTPUT ARRAY of region 1 after its write-backs: the whole-array function of the arrays the region finds. -/
theorem final1 (c : Dev nD) : (dat1 V c).arrAt 6 cfg1.N = layerArr (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 V c).arrAt_eq_of_cover 6 _ (fun t _ => flushed1_eq V c t) (cover1)

end Cert.KernelIdeal.Blocks

end
-- ==== Proof.KernelRegion2.lean ====
/-
  Region 2 (the projection by the last layer's neighbour weights), from any contents V of the buffers at its entry: block t of the output is block t of the whole-array product, and the 50 blocks cover the output array.
-/
import proofs.«120476_j4020089389331_2_alg».proof.Proof.KernelIdealFrameP
import proofs.«120476_j4020089389331_2_alg».proof.Proof.KernelBody
import proofs.«120476_j4020089389331_2_alg».proof.Proof.KernelArr
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Sage (cur2)
open Cert.KernelIdeal Cert.KernelIdeal.Gen Cert.KernelIdeal.GenP Cert.KernelIdeal.Body

variable (V : (c : Dev nD) → (b : Ref sig .tc) → Buf (Elt Ideal) ((c : Thread nD τ).loc b))

/-- Entry (p, q) of a block of the projection is entry i of the whole-array product. -/
theorem block2_eq (x0 : Vec Ideal S2000x256 .f32) (x1 : Vec Ideal S256x64 .bf16)
    (A0 : S100000x256.Idx → EReal) (A1 : S256x64.Idx → EReal) (p : Fin 2000) (q : Fin 64) (i : S100000x64.Idx)
    (h0 : ∀ k : Fin 256, x0 (ix2 p k) = A0 (ix2 (i 0) k)) (h1 : ∀ k : Fin 256, x1 (ix2 k q) = A1 (ix2 k (i 1))) :
    k2_pay1 x0 x1 (ix2 p q) = projArr A0 A1 i := by
  rw [pay2_apply]
  show _ = ∑ k : Fin 256, A0 (ix2 (i 0) k) * A1 (ix2 k (i 1))
  simp only [h0, h1]

/-- The array row that row p of point t's block is. -/
def row2 (t : Fin cfg2.N) (p : Fin 2000) : Fin 100000 :=
  ⟨t.val * 2000 + p.val, by have h : t.val < 50 := t.isLt; have := p.isLt; omega⟩

/-! The printed index maps of region 2, decided over its grid: a row-tiled window's block at point t is block t, the
    weights and the bias stay at block zero. -/
theorem idx_2_0 : ∀ t : Fin cfg2.N, win2_0.index t (0 : Fin 2) = t.val ∧ win2_0.index t (1 : Fin 2) = 0 :=
  (by decide +kernel : ∀ t : Fin grid2.N, _)
theorem idx_2_1 : ∀ t : Fin cfg2.N, win2_1.index t (0 : Fin 2) = 0 ∧ win2_1.index t (1 : Fin 2) = 0 :=
  (by decide +kernel : ∀ t : Fin grid2.N, _)
theorem idx_2_2 : ∀ t : Fin cfg2.N, win2_2.index t (0 : Fin 2) = t.val ∧ win2_2.index t (1 : Fin 2) = 0 :=
  (by decide +kernel : ∀ t : Fin grid2.N, _)

/-! Each window's block at point t, read where the body reads it, is the array the region finds, read at the row and
    column the block covers. -/
theorem read2_0 (c : Dev nD) (t : Fin cfg2.N) (p : Fin 2000) (k : Fin 256) :
    iblk2 V c 0 t (ix2 p k) = V c (Pipeline.arrRef spec2 0) (ix2 (row2 t p) k) := by
  obtain ⟨ew0, ew1⟩ := idx_2_0 t
  show V c (Pipeline.arrRef spec2 0) (((cfg2.win 0).blk t).view.emb (ix2 p k)) = _
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 256 + 1 * k.val = k.val; omega

theorem read2_1 (c : Dev nD) (t : Fin cfg2.N) (k : Fin 256) (q : Fin 64) :
    iblk2 V c 1 t (ix2 k q) = V c (Pipeline.arrRef spec2 1) (ix2 k q) := by
  obtain ⟨ew0, ew1⟩ := idx_2_1 t
  show V c (Pipeline.arrRef spec2 1) (((cfg2.win 1).blk t).view.emb (ix2 k q)) = _
  refine congrArg _ (funext fun a => Fin.ext ?_)
  match a with
  | ⟨0, _⟩ => show win2_1.index t (0 : Fin 2) * 256 + 1 * k.val = k.val; omega
  | ⟨1, _⟩ => show win2_1.index t (1 : Fin 2) * 64 + 1 * q.val = q.val; omega

/-- Where entry (p, q) of the output's block at point t sits in the output array. -/
theorem emb2 (t : Fin cfg2.N) (p : Fin 2000) (q : Fin 64) :
    ((cfg2.win 2).blk t).view.emb (ix2 p q) = ix2 (row2 t p) q := by
  obtain ⟨ew0, ew1⟩ := idx_2_2 t
  refine funext fun a => Fin.ext ?_
  match a with
  | ⟨0, _⟩ => show win2_2.index t (0 : Fin 2) * 2000 + 1 * p.val = t.val * 2000 + p.val; omega
  | ⟨1, _⟩ => show win2_2.index t (1 : Fin 2) * 64 + 1 * q.val = q.val; omega

/-- What point t writes back is block t of the whole-array function of the arrays the region finds. -/
theorem flushed2_eq (c : Dev nD) (t : Fin cfg2.N) :
    (dat2 V c).flushed 2 t = ((cfg2.win 2).blk t).view.read (Elt Ideal)
      (projArr (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S2000x256) hz, View.ld_unit_zero (S := S256x64) hz, View.ld_unit_zero (S := S2000x64) hz]
  funext j
  obtain ⟨p, q, rfl⟩ : ∃ (p : Fin 2000) (q : Fin 64), j = ix2 p q := ⟨j 0, j 1, eq_ix2 j⟩
  show k2_pay1 (iblk2 V c 0 t) (iblk2 V c 1 t) (ix2 p q)
    = projArr (V c (Pipeline.arrRef spec2 0)) (V c (Pipeline.arrRef spec2 1)) (((cfg2.win 2).blk t).view.emb (ix2 p q))
  rw [emb2]
  exact block2_eq (iblk2 V c 0 t) (iblk2 V c 1 t)
    (V c (Pipeline.arrRef spec2 0)) (V c (Pipeline.arrRef spec2 1))
    p q (ix2 (row2 t p) q) (fun k => read2_0 V c t p k) (fun k => read2_1 V c t k q)

/-- An index of the output array lies in point t's block iff each coordinate lies in the block's range. -/
theorem mem_blk2 (t : Fin cfg2.N) (i : S100000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v40).slice (win2_2.rect t)).set ↔ _
  rw [View.set_slice_whole, Rect.mem_set_unit]
  exact Iff.rfl

/-- Every row lies in some point's block: row r in the block of point r / 2000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have ht : (i 0).val / 2000 < 50 := by omega
  refine ⟨⟨(i 0).val / 2000, ht⟩, flush2_2 _, ?_⟩
  rw [mem_blk2]
  obtain ⟨f0, f1⟩ := idx_2_2 ⟨(i 0).val / 2000, ht⟩
  have f0' : win2_2.index ⟨(i 0).val / 2000, ht⟩ (0 : Fin 2) = (i 0).val / 2000 := f0
  intro a
  match a with
  | ⟨0, _⟩ =>
    show win2_2.index ⟨(i 0).val / 2000, ht⟩ (0 : Fin 2) * 2000 ≤ (i 0).val
      ∧ (i 0).val < win2_2.index ⟨(i 0).val / 2000, ht⟩ (0 : Fin 2) * 2000 + 2000
    rw [f0']; omega
  | ⟨1, _⟩ =>
    show win2_2.index ⟨(i 0).val / 2000, ht⟩ (1 : Fin 2) * 64 ≤ (i 1).val
      ∧ (i 1).val < win2_2.index ⟨(i 0).val / 2000, ht⟩ (1 : Fin 2) * 64 + 64
    rw [f1]; omega

/-- THE OUTPUT ARRAY of region 2 after its write-backs: the whole-array function of the arrays the region finds. -/
theorem final2 (c : Dev nD) : (dat2 V c).arrAt 2 cfg2.N = projArr (V c (Pipeline.arrRef spec2 0)) (V c (Pipeline.arrRef spec2 1)) :=
  (dat2 V c).arrAt_eq_of_cover 2 _ (fun t _ => flushed2_eq V c t) (cover2)

end Cert.KernelIdeal.Blocks

end
-- ==== Proof.KernelRegion3.lean ====
/-
  Region 3 (the last layer, its neighbour sums already projected), from any contents V of the buffers at its entry: block t of the output is block t of the whole-array function, and the 50 blocks cover the output array.
-/
import proofs.«120476_j4020089389331_2_alg».proof.Proof.KernelIdealFrameP
import proofs.«120476_j4020089389331_2_alg».proof.Proof.KernelBody
import proofs.«120476_j4020089389331_2_alg».proof.Proof.KernelArr
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Sage (cur2)
open Cert.KernelIdeal Cert.KernelIdeal.Gen Cert.KernelIdeal.GenP Cert.KernelIdeal.Body

variable (V : (c : Dev nD) → (b : Ref sig .tc) → Buf (Elt Ideal) ((c : Thread nD τ).loc b))

/-- Entry (p, q) of a block of the last layer is entry i of the whole-array function. -/
theorem block3_eq (x0 : Vec Ideal S2000x256 .f32) (x1 : Vec Ideal S2000x64 .f32) (x2 : Vec Ideal S2000x1 .f32)
    (x3 : Vec Ideal S256x64 .bf16) (x4 : Vec Ideal S1x64 .f32)
    (A0 : S100000x256.Idx → EReal) (A1 : S100000x64.Idx → EReal) (A2 : S100000x1.Idx → EReal) (A3 : S256x64.Idx → EReal)
    (A4 : S1x64.Idx → EReal) (p : Fin 2000) (q : Fin 64) (i : S100000x64.Idx)
    (h0 : ∀ k : Fin 256, x0 (ix2 p k) = A0 (ix2 (i 0) k)) (h1 : x1 (ix2 p q) = A1 (ix2 (i 0) (i 1)))
    (h2 : x2 (ix2 p 0) = A2 (ix2 (i 0) 0)) (h3 : ∀ k : Fin 256, x3 (ix2 k q) = A3 (ix2 k (i 1)))
    (h4 : x4 (ix2 0 q) = A4 (ix2 0 (i 1))) :
    k3_pay1 x0 x3 x1 x2 x4 (ix2 p q) = preArr A0 A1 A2 A3 A4 i := by
  rw [pay3_apply]
  show _ = ((∑ k : Fin 256, A0 (ix2 (i 0) k) * A3 (ix2 k (i 1))) + A1 (ix2 (i 0) (i 1)) * A2 (ix2 (i 0) 0)) + A4 (ix2 0 (i 1))
  simp only [h0, h1, h2, h3, h4]

/-- The array row that row p of point t's block is. -/
def row3 (t : Fin cfg3.N) (p : Fin 2000) : Fin 100000 :=
  ⟨t.val * 2000 + p.val, by have h : t.val < 50 := t.isLt; have := p.isLt; omega⟩

/-! The printed index maps of region 3, decided over its grid: a row-tiled window's block at point t is block t, the
    weights and the bias stay at block zero. -/
theorem idx_3_0 : ∀ t : Fin cfg3.N, win3_0.index t (0 : Fin 2) = t.val ∧ win3_0.index t (1 : Fin 2) = 0 :=
  (by decide +kernel : ∀ t : Fin grid3.N, _)
theorem idx_3_1 : ∀ t : Fin cfg3.N, win3_1.index t (0 : Fin 2) = t.val ∧ win3_1.index t (1 : Fin 2) = 0 :=
  (by decide +kernel : ∀ t : Fin grid3.N, _)
theorem idx_3_2 : ∀ t : Fin cfg3.N, win3_2.index t (0 : Fin 2) = t.val ∧ win3_2.index t (1 : Fin 2) = 0 :=
  (by decide +kernel : ∀ t : Fin grid3.N, _)
theorem idx_3_3 : ∀ t : Fin cfg3.N, win3_3.index t (0 : Fin 2) = 0 ∧ win3_3.index t (1 : Fin 2) = 0 :=
  (by decide +kernel : ∀ t : Fin grid3.N, _)
theorem idx_3_4 : ∀ t : Fin cfg3.N, win3_4.index t (0 : Fin 2) = 0 ∧ win3_4.index t (1 : Fin 2) = 0 :=
  (by decide +kernel : ∀ t : Fin grid3.N, _)
theorem idx_3_5 : ∀ t : Fin cfg3.N, win3_5.index t (0 : Fin 2) = t.val ∧ win3_5.index t (1 : Fin 2) = 0 :=
  (by decide +kernel : ∀ t : Fin grid3.N, _)

/-! Each window's block at point t, read where the body reads it, is the array the region finds, read at the row and
    column the block covers. -/
theorem read3_0 (c : Dev nD) (t : Fin cfg3.N) (p : Fin 2000) (k : Fin 256) :
    iblk3 V c 0 t (ix2 p k) = V c (Pipeline.arrRef spec3 0) (ix2 (row3 t p) k) := by
  obtain ⟨ew0, ew1⟩ := idx_3_0 t
  show V c (Pipeline.arrRef spec3 0) (((cfg3.win 0).blk t).view.emb (ix2 p k)) = _
  refine congrArg _ (funext fun a => Fin.ext ?_)
  match a with
  | ⟨0, _⟩ => show win3_0.index t (0 : Fin 2) * 2000 + 1 * p.val = t.val * 2000 + p.val; omega
  | ⟨1, _⟩ => show win3_0.index t (1 : Fin 2) * 256 + 1 * k.val = k.val; omega

theorem read3_1 (c : Dev nD) (t : Fin cfg3.N) (p : Fin 2000) (q : Fin 64) :
    iblk3 V c 1 t (ix2 p q) = V c (Pipeline.arrRef spec3 1) (ix2 (row3 t p) q) := by
  obtain ⟨ew0, ew1⟩ := idx_3_1 t
  show V c (Pipeline.arrRef spec3 1) (((cfg3.win 1).blk t).view.emb (ix2 p q)) = _
  refine congrArg _ (funext fun a => Fin.ext ?_)
  match a with
  | ⟨0, _⟩ => show win3_1.index t (0 : Fin 2) * 2000 + 1 * p.val = t.val * 2000 + p.val; omega
  | ⟨1, _⟩ => show win3_1.index t (1 : Fin 2) * 64 + 1 * q.val = q.val; omega

theorem read3_2 (c : Dev nD) (t : Fin cfg3.N) (p : Fin 2000) :
    iblk3 V c 2 t (ix2 p 0) = V c (Pipeline.arrRef spec3 2) (ix2 (row3 t p) 0) := by
  obtain ⟨ew0, ew1⟩ := idx_3_2 t
  show V c (Pipeline.arrRef spec3 2) (((cfg3.win 2).blk t).view.emb (ix2 p 0)) = _
  refine congrArg _ (funext fun a => Fin.ext ?_)
  match a with
  | ⟨0, _⟩ => show win3_2.index t (0 : Fin 2) * 2000 + 1 * p.val = t.val * 2000 + p.val; omega
  | ⟨1, _⟩ => show win3_2.index t (1 : Fin 2) * 1 + 1 * 0 = 0; omega

theorem read3_3 (c : Dev nD) (t : Fin cfg3.N) (k : Fin 256) (q : Fin 64) :
    iblk3 V c 3 t (ix2 k q) = V c (Pipeline.arrRef spec3 3) (ix2 k q) := by
  obtain ⟨ew0, ew1⟩ := idx_3_3 t
  show V c (Pipeline.arrRef spec3 3) (((cfg3.win 3).blk t).view.emb (ix2 k q)) = _
  refine congrArg _ (funext fun a => Fin.ext ?_)
  match a with
  | ⟨0, _⟩ => show win3_3.index t (0 : Fin 2) * 256 + 1 * k.val = k.val; omega
  | ⟨1, _⟩ => show win3_3.index t (1 : Fin 2) * 64 + 1 * q.val = q.val; omega

theorem read3_4 (c : Dev nD) (t : Fin cfg3.N) (q : Fin 64) :
    iblk3 V c 4 t (ix2 0 q) = V c (Pipeline.arrRef spec3 4) (ix2 0 q) := by
  obtain ⟨ew0, ew1⟩ := idx_3_4 t
  show V c (Pipeline.arrRef spec3 4) (((cfg3.win 4).blk t).view.emb (ix2 0 q)) = _
  refine congrArg _ (funext fun a => Fin.ext ?_)
  match a with
  | ⟨0, _⟩ => show win3_4.index t (0 : Fin 2) * 1 + 1 * 0 = 0; omega
  | ⟨1, _⟩ => show win3_4.index t (1 : Fin 2) * 64 + 1 * q.val = q.val; omega

/-- Where entry (p, q) of the output's block at point t sits in the output array. -/
theorem emb3 (t : Fin cfg3.N) (p : Fin 2000) (q : Fin 64) :
    ((cfg3.win 5).blk t).view.emb (ix2 p q) = ix2 (row3 t p) q := by
  obtain ⟨ew0, ew1⟩ := idx_3_5 t
  refine funext fun a => Fin.ext ?_
  match a with
  | ⟨0, _⟩ => show win3_5.index t (0 : Fin 2) * 2000 + 1 * p.val = t.val * 2000 + p.val; omega
  | ⟨1, _⟩ => show win3_5.index t (1 : Fin 2) * 64 + 1 * q.val = q.val; omega

/-- What point t writes back is block t of the whole-array function of the arrays the region finds. -/
theorem flushed3_eq (c : Dev nD) (t : Fin cfg3.N) :
    (dat3 V c).flushed 5 t = ((cfg3.win 5).blk t).view.read (Elt Ideal)
      (preArr (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S2000x256) hz, View.ld_unit_zero (S := S256x64) hz, View.ld_unit_zero (S := S2000x64) hz, View.ld_unit_zero (S := S2000x1) hz, View.ld_unit_zero (S := S1x64) hz]
  funext j
  obtain ⟨p, q, rfl⟩ : ∃ (p : Fin 2000) (q : Fin 64), j = ix2 p q := ⟨j 0, j 1, eq_ix2 j⟩
  show k3_pay1 (iblk3 V c 0 t) (iblk3 V c 3 t) (iblk3 V c 1 t) (iblk3 V c 2 t) (iblk3 V c 4 t) (ix2 p q)
    = preArr (V c (Pipeline.arrRef spec3 0)) (V c (Pipeline.arrRef spec3 1)) (V c (Pipeline.arrRef spec3 2)) (V c (Pipeline.arrRef spec3 3)) (V c (Pipeline.arrRef spec3 4)) (((cfg3.win 5).blk t).view.emb (ix2 p q))
  rw [emb3]
  exact block3_eq (iblk3 V c 0 t) (iblk3 V c 1 t) (iblk3 V c 2 t) (iblk3 V c 3 t) (iblk3 V c 4 t)
    (V c (Pipeline.arrRef spec3 0)) (V c (Pipeline.arrRef spec3 1)) (V c (Pipeline.arrRef spec3 2)) (V c (Pipeline.arrRef spec3 3)) (V c (Pipeline.arrRef spec3 4))
    p q (ix2 (row3 t p) q) (fun k => read3_0 V c t p k) (read3_1 V c t p q) (read3_2 V c t p) (fun k => read3_3 V c t k q) (read3_4 V c t q)

/-- An index of the output array lies in point t's block iff each coordinate lies in the block's range. -/
theorem mem_blk3 (t : Fin cfg3.N) (i : S100000x64.Idx) :
    i ∈ ((cfg3.win 5).blk t).view.set ↔ ∀ a : Fin 2, win3_5.index t a * S2000x64.size a ≤ (i a).val
      ∧ (i a).val < win3_5.index t a * S2000x64.size a + S2000x64.size a := by
  show i ∈ ((View.whole main_v51).slice (win3_5.rect t)).set ↔ _
  rw [View.set_slice_whole, Rect.mem_set_unit]
  exact Iff.rfl

/-- Every row lies in some point's block: row r in the block of point r / 2000. -/
theorem cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have ht : (i 0).val / 2000 < 50 := by omega
  refine ⟨⟨(i 0).val / 2000, ht⟩, flush3_5 _, ?_⟩
  rw [mem_blk3]
  obtain ⟨f0, f1⟩ := idx_3_5 ⟨(i 0).val / 2000, ht⟩
  have f0' : win3_5.index ⟨(i 0).val / 2000, ht⟩ (0 : Fin 2) = (i 0).val / 2000 := f0
  intro a
  match a with
  | ⟨0, _⟩ =>
    show win3_5.index ⟨(i 0).val / 2000, ht⟩ (0 : Fin 2) * 2000 ≤ (i 0).val
      ∧ (i 0).val < win3_5.index ⟨(i 0).val / 2000, ht⟩ (0 : Fin 2) * 2000 + 2000
    rw [f0']; omega
  | ⟨1, _⟩ =>
    show win3_5.index ⟨(i 0).val / 2000, ht⟩ (1 : Fin 2) * 64 ≤ (i 1).val
      ∧ (i 1).val < win3_5.index ⟨(i 0).val / 2000, ht⟩ (1 : Fin 2) * 64 + 64
    rw [f1]; omega

/-- THE OUTPUT ARRAY of region 3 after its write-backs: the whole-array function of the arrays the region finds. -/
theorem final3 (c : Dev nD) : (dat3 V c).arrAt 5 cfg3.N = preArr (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed3_eq V c t) (cover3)

end Cert.KernelIdeal.Blocks

end
-- ==== Proof.RefAgg.lean ====
/-
  The reference's neighbour aggregation and inverse degree, read at an entry on the extended reals.

  Rows gathered at the source indices and scatter-added at the target indices onto zeros are one function of the node
  features and the two index arrays; at an entry it is the neighbour sum, and one over the clamped count of a node's
  edges is its inverse degree. The reference aggregates three times, its input and its two hidden layers, each time
  with that one function.
-/
import proofs.«120476_j4020089389331_2_alg».proof.Proof.Gen.ReferenceIdeal.Read
import proofs.«120476_j4020089389331_2_alg».proof.Proof.SageArr

noncomputable section

namespace Cert.ReferenceIdeal.Chain

open Idealize.ShloMosaic Idealize.ShloMosaic.ValueIdx Cert.ReferenceIdeal Cert.ReferenceIdeal.Read
open Sage (cur2 selOf rowOf)

/-- The target indices as the scatter takes them (one per row of a column). -/
abbrev didx (x2 : IVec S800000 32) : IVec S800000x1 32 := val_main_v16 (F := Ideal) x2
/-- The source indices as the gather takes them: negative ones wrapped once, laid out as a column. -/
abbrev sidx (x1 : IVec S800000 32) : IVec S800000x1 32 := val_main_v13 (F := Ideal) x1

/-- THE AGGREGATION of node features h along the edges, as the host computes it. -/
def agg (h : FVec Ideal S100000x256 .f32) (x1 x2 : IVec S800000 32) : FVec Ideal S100000x256 .f32 :=
  Host.scatterAdd scatter_S100000x256_S800000x1_S800000x256_1_0_0_1 (val_main_v15 (F := Ideal)) (val_main_v16 (F := Ideal) x2)
    (Host.gather gather_S100000x256_S800000x1_S800000x256_1_0_n_n_0_1_1256 h (val_main_v13 (F := Ideal) x1))

theorem v15_zero (i : S100000x256.Idx) : val_main_v15 (F := Ideal) i = 0 := by
  rw [val_main_v15_apply, val_main_cst_4_apply]; exact Ideal.ofBits_zero_f32
theorem v1_zero (i : S100000.Idx) : val_main_v1 (F := Ideal) i = 0 := by
  rw [val_main_v1_apply, val_main_cst_0_apply]; exact Ideal.ofBits_zero_f32
theorem v0_one (i : S800000.Idx) : val_main_v0 (F := Ideal) i = 1 := by
  rw [val_main_v0_apply, val_main_cst_apply]; exact Sage.ofBits_one

/-- The scatter's and the gather's dimension numbers are the row forms. -/
theorem scatter_rows : scatter_S100000x256_S800000x1_S800000x256_1_0_0_1
    = LibScatterAddRows.rowDims 100000 800000 256 scatter_S100000x256_S800000x1_S800000x256_1_0_0_1.wf := rfl
theorem gather_rows : gather_S100000x256_S800000x1_S800000x256_1_0_n_n_0_1_1256
    = Cert.RowGather.dims2 100000 256 800000 gather_S100000x256_S800000x1_S800000x256_1_0_n_n_0_1_1256.wf := rfl
theorem scatter_vec : scatter_S100000_S800000x1_S800000_n_0_0_1
    = LibScatterAddVec.vecDims 100000 800000 scatter_S100000_S800000x1_S800000_n_0_0_1.wf := rfl

/-- At (n, d) the aggregation is the neighbour sum. -/
theorem agg_apply (h : FVec Ideal S100000x256 .f32) (x1 x2 : IVec S800000 32) (n : Fin 100000) (d : Fin 256) :
    agg h x1 x2 (ix2 n d) = Sage.nsum (selOf (didx x2)) (rowOf (sidx x1)) (cur2 h) n d := by
  unfold agg
  rw [scatter_rows, gather_rows]
  exact Sage.scatter_gather_apply _ _ _ v15_zero _ _ h n d

/-- At n the reference's inverse degree is one over the clamped count of n's edges. -/
theorem inv_apply (x2 : IVec S800000 32) (n : Fin 100000) :
    val_main_v7 (F := Ideal) x2 (ix1 n) = Sage.invdeg (selOf (didx x2)) n := by
  rw [val_main_v7_apply, val_main_v6_apply, val_main_cst_2_apply, val_main_v5_apply, val_main_v4_apply, val_main_cst_1_apply]
  simp only [Ideal.hostDivf_def, Ideal.maximumf_def, Ideal.ofBits_def, Sage.ofBits_one]
  unfold val_main_v3
  rw [scatter_vec]
  exact Sage.count_apply _ _ v1_zero (val_main_v2 (F := Ideal) x2) _ v0_one n

variable (x0 : FVec Ideal S100000x256 .f32) (x1 x2 : IVec S800000 32) (x3 x4 : FVec Ideal S256x256 .f32) (x5 : FVec Ideal S256 .f32)
  (x6 x7 : FVec Ideal S256x256 .f32) (x8 : FVec Ideal S256 .f32)

/-! The three aggregations of the reference are that one function: the zeros, the target indices and the source
    indices are recomputed each time by the same operations. -/
theorem v35_eq : val_main_v35 (F := Ideal) = val_main_v15 (F := Ideal) := rfl
theorem v55_eq : val_main_v55 (F := Ideal) = val_main_v15 (F := Ideal) := rfl
theorem v36_eq : val_main_v36 (F := Ideal) x2 = val_main_v16 (F := Ideal) x2 := rfl
theorem v56_eq : val_main_v56 (F := Ideal) x2 = val_main_v16 (F := Ideal) x2 := rfl
theorem v33_eq : val_main_v33 (F := Ideal) x1 = val_main_v13 (F := Ideal) x1 := rfl
theorem v53_eq : val_main_v53 (F := Ideal) x1 = val_main_v13 (F := Ideal) x1 := rfl

theorem v17_eq : val_main_v17 (F := Ideal) x0 x1 x2 = agg x0 x1 x2 := by
  unfold val_main_v17 val_main_v14 agg; rfl
theorem v37_eq : val_main_v37 (F := Ideal) x0 x1 x2 x3 x4 x5 = agg (val_main_v27 (F := Ideal) x0 x1 x2 x3 x4 x5) x1 x2 := by
  unfold val_main_v37 val_main_v34 agg; rw [v35_eq, v36_eq, v33_eq]
theorem v57_eq : val_main_v57 (F := Ideal) x0 x1 x2 x3 x4 x5 x6 x7 x8 = agg (val_main_v47 (F := Ideal) x0 x1 x2 x3 x4 x5 x6 x7 x8) x1 x2 := by
  unfold val_main_v57 val_main_v54 agg; rw [v55_eq, v56_eq, v53_eq]

end Cert.ReferenceIdeal.Chain

end
-- ==== Proof.RefLayers.lean ====
/-
  The reference's three layers read at an entry, on the extended reals: each is the layer formula of the previous
  layer's output, that output's aggregation, the inverse degrees, two weight matrices and a bias; the last layer has
  no clamp. A broadcast of a vector along rows or columns reads the vector at the remaining coordinate, and a
  product's entry (n, j) contracts row n with column j.
-/
import proofs.«120476_j4020089389331_2_alg».proof.Proof.RefAgg

noncomputable section

namespace Cert.ReferenceIdeal.Chain

open Idealize.ShloMosaic Idealize.ShloMosaic.ValueIdx Cert.ReferenceIdeal Cert.ReferenceIdeal.Read
open Sage (cur2 selOf rowOf)

variable (x0 : FVec Ideal S100000x256 .f32) (x1 x2 : IVec S800000 32) (x3 x4 : FVec Ideal S256x256 .f32) (x5 : FVec Ideal S256 .f32)
  (x6 x7 : FVec Ideal S256x256 .f32) (x8 : FVec Ideal S256 .f32) (x9 x10 : FVec Ideal S256x64 .f32) (x11 : FVec Ideal S64 .f32)

theorem l21 (n : Fin 100000) (j : Fin 256) (k : Fin 256) : lidx_main_v21 (ix2 n j) k = ix2 n k := by funext a; match a with | ⟨0, _⟩ => rfl | ⟨1, _⟩ => rfl
theorem r21 (n : Fin 100000) (j : Fin 256) (k : Fin 256) : ridx_main_v21 (ix2 n j) k = ix2 k j := by funext a; match a with | ⟨0, _⟩ => rfl | ⟨1, _⟩ => rfl
theorem l22 (n : Fin 100000) (j : Fin 256) (k : Fin 256) : lidx_main_v22 (ix2 n j) k = ix2 n k := by funext a; match a with | ⟨0, _⟩ => rfl | ⟨1, _⟩ => rfl
theorem r22 (n : Fin 100000) (j : Fin 256) (k : Fin 256) : ridx_main_v22 (ix2 n j) k = ix2 k j := by funext a; match a with | ⟨0, _⟩ => rfl | ⟨1, _⟩ => rfl
theorem i19 (n : Fin 100000) (k : Fin 256) : idx_main_v18 (idx_main_v19 (ix2 n k)) = ix1 n := by funext a; match a with | ⟨0, _⟩ => rfl
theorem i25 (n : Fin 100000) (j : Fin 256) : idx_main_v24 (idx_main_v25 (ix2 n j)) = ix1 j := by funext a; match a with | ⟨0, _⟩ => rfl

/-- The affine part of layer 1 at entry (n, j): two products and the bias. -/
theorem ref_affine1 (n : Fin 100000) (j : Fin 256) :
    val_main_v26 (F := Ideal) x0 x1 x2 x3 x4 x5 (ix2 n j)
      = ((∑ k : Fin 256, (x0) (ix2 n k) * x3 (ix2 k j))
        + ∑ k : Fin 256, ((val_main_v17 (F := Ideal) x0 x1 x2) (ix2 n k) * val_main_v7 (F := Ideal) x2 (ix1 n)) * x4 (ix2 k j)) + x5 (ix1 j) := by
  rw [val_main_v26_apply, val_main_v23_apply, val_main_v21_apply, val_main_v22_apply,
    val_main_v25_apply, val_main_v24_apply, i25]
  have e1 : ∀ k : Fin 256, (x0) (lidx_main_v21 (ix2 n j) k) * x3 (ridx_main_v21 (ix2 n j) k)
      = (x0) (ix2 n k) * x3 (ix2 k j) := fun k => by rw [l21, r21]
  have e2 : ∀ k : Fin 256, (val_main_v20 (F := Ideal) x0 x1 x2) (lidx_main_v22 (ix2 n j) k) * x4 (ridx_main_v22 (ix2 n j) k)
      = ((val_main_v17 (F := Ideal) x0 x1 x2) (ix2 n k) * val_main_v7 (F := Ideal) x2 (ix1 n)) * x4 (ix2 k j) := fun k => by
    rw [l22, r22, val_main_v20_apply, val_main_v19_apply, val_main_v18_apply, i19]
    rfl
  rw [Finset.sum_congr rfl (fun k _ => e1 k), Finset.sum_congr rfl (fun k _ => e2 k)]
  rfl

/-- Layer 1 of the reference at entry (n, j). -/
theorem ref_layer1 (n : Fin 100000) (j : Fin 256) :
    val_main_v27 (F := Ideal) x0 x1 x2 x3 x4 x5 (ix2 n j)
      = Sage.layer (cur2 (x0)) (cur2 (val_main_v17 (F := Ideal) x0 x1 x2)) (fun n => val_main_v7 (F := Ideal) x2 (ix1 n)) (cur2 x3) (cur2 x4) (fun j => x5 (ix1 j)) n j := by
  rw [val_main_v27_apply, ref_affine1, val_main_call0_v0_apply, val_main_call0_cst_apply]
  show max _ (Ideal.ofBits .f32 0x00000000#32) = _
  rw [Ideal.ofBits_zero_f32]
  rfl

theorem l41 (n : Fin 100000) (j : Fin 256) (k : Fin 256) : lidx_main_v41 (ix2 n j) k = ix2 n k := by funext a; match a with | ⟨0, _⟩ => rfl | ⟨1, _⟩ => rfl
theorem r41 (n : Fin 100000) (j : Fin 256) (k : Fin 256) : ridx_main_v41 (ix2 n j) k = ix2 k j := by funext a; match a with | ⟨0, _⟩ => rfl | ⟨1, _⟩ => rfl
theorem l42 (n : Fin 100000) (j : Fin 256) (k : Fin 256) : lidx_main_v42 (ix2 n j) k = ix2 n k := by funext a; match a with | ⟨0, _⟩ => rfl | ⟨1, _⟩ => rfl
theorem r42 (n : Fin 100000) (j : Fin 256) (k : Fin 256) : ridx_main_v42 (ix2 n j) k = ix2 k j := by funext a; match a with | ⟨0, _⟩ => rfl | ⟨1, _⟩ => rfl
theorem i39 (n : Fin 100000) (k : Fin 256) : idx_main_v38 (idx_main_v39 (ix2 n k)) = ix1 n := by funext a; match a with | ⟨0, _⟩ => rfl
theorem i45 (n : Fin 100000) (j : Fin 256) : idx_main_v44 (idx_main_v45 (ix2 n j)) = ix1 j := by funext a; match a with | ⟨0, _⟩ => rfl

/-- The affine part of layer 2 at entry (n, j): two products and the bias. -/
theorem ref_affine2 (n : Fin 100000) (j : Fin 256) :
    val_main_v46 (F := Ideal) x0 x1 x2 x3 x4 x5 x6 x7 x8 (ix2 n j)
      = ((∑ k : Fin 256, (val_main_v27 (F := Ideal) x0 x1 x2 x3 x4 x5) (ix2 n k) * x6 (ix2 k j))
        + ∑ k : Fin 256, ((val_main_v37 (F := Ideal) x0 x1 x2 x3 x4 x5) (ix2 n k) * val_main_v7 (F := Ideal) x2 (ix1 n)) * x7 (ix2 k j)) + x8 (ix1 j) := by
  rw [val_main_v46_apply, val_main_v43_apply, val_main_v41_apply, val_main_v42_apply,
    val_main_v45_apply, val_main_v44_apply, i45]
  have e1 : ∀ k : Fin 256, (val_main_v27 (F := Ideal) x0 x1 x2 x3 x4 x5) (lidx_main_v41 (ix2 n j) k) * x6 (ridx_main_v41 (ix2 n j) k)
      = (val_main_v27 (F := Ideal) x0 x1 x2 x3 x4 x5) (ix2 n k) * x6 (ix2 k j) := fun k => by rw [l41, r41]
  have e2 : ∀ k : Fin 256, (val_main_v40 (F := Ideal) x0 x1 x2 x3 x4 x5) (lidx_main_v42 (ix2 n j) k) * x7 (ridx_main_v42 (ix2 n j) k)
      = ((val_main_v37 (F := Ideal) x0 x1 x2 x3 x4 x5) (ix2 n k) * val_main_v7 (F := Ideal) x2 (ix1 n)) * x7 (ix2 k j) := fun k => by
    rw [l42, r42, val_main_v40_apply, val_main_v39_apply, val_main_v38_apply, i39]
    rfl
  rw [Finset.sum_congr rfl (fun k _ => e1 k), Finset.sum_congr rfl (fun k _ => e2 k)]
  rfl

/-- Layer 2 of the reference at entry (n, j). -/
theorem ref_layer2 (n : Fin 100000) (j : Fin 256) :
    val_main_v47 (F := Ideal) x0 x1 x2 x3 x4 x5 x6 x7 x8 (ix2 n j)
      = Sage.layer (cur2 (val_main_v27 (F := Ideal) x0 x1 x2 x3 x4 x5)) (cur2 (val_main_v37 (F := Ideal) x0 x1 x2 x3 x4 x5)) (fun n => val_main_v7 (F := Ideal) x2 (ix1 n)) (cur2 x6) (cur2 x7) (fun j => x8 (ix1 j)) n j := by
  rw [val_main_v47_apply, ref_affine2, val_main_call1_v0_apply, val_main_call1_cst_apply]
  show max _ (Ideal.ofBits .f32 0x00000000#32) = _
  rw [Ideal.ofBits_zero_f32]
  rfl

theorem l61 (n : Fin 100000) (j : Fin 64) (k : Fin 256) : lidx_main_v61 (ix2 n j) k = ix2 n k := by funext a; match a with | ⟨0, _⟩ => rfl | ⟨1, _⟩ => rfl
theorem r61 (n : Fin 100000) (j : Fin 64) (k : Fin 256) : ridx_main_v61 (ix2 n j) k = ix2 k j := by funext a; match a with | ⟨0, _⟩ => rfl | ⟨1, _⟩ => rfl
theorem l62 (n : Fin 100000) (j : Fin 64) (k : Fin 256) : lidx_main_v62 (ix2 n j) k = ix2 n k := by funext a; match a with | ⟨0, _⟩ => rfl | ⟨1, _⟩ => rfl
theorem r62 (n : Fin 100000) (j : Fin 64) (k : Fin 256) : ridx_main_v62 (ix2 n j) k = ix2 k j := by funext a; match a with | ⟨0, _⟩ => rfl | ⟨1, _⟩ => rfl
theorem i59 (n : Fin 100000) (k : Fin 256) : idx_main_v58 (idx_main_v59 (ix2 n k)) = ix1 n := by funext a; match a with | ⟨0, _⟩ => rfl
theorem i65 (n : Fin 100000) (j : Fin 64) : idx_main_v64 (idx_main_v65 (ix2 n j)) = ix1 j := by funext a; match a with | ⟨0, _⟩ => rfl

/-- The affine part of layer 3 at entry (n, j): two products and the bias. -/
theorem ref_affine3 (n : Fin 100000) (j : Fin 64) :
    val_main_v66 (F := Ideal) x0 x1 x2 x3 x4 x5 x6 x7 x8 x9 x10 x11 (ix2 n j)
      = ((∑ k : Fin 256, (val_main_v47 (F := Ideal) x0 x1 x2 x3 x4 x5 x6 x7 x8) (ix2 n k) * x9 (ix2 k j))
        + ∑ k : Fin 256, ((val_main_v57 (F := Ideal) x0 x1 x2 x3 x4 x5 x6 x7 x8) (ix2 n k) * val_main_v7 (F := Ideal) x2 (ix1 n)) * x10 (ix2 k j)) + x11 (ix1 j) := by
  rw [val_main_v66_apply, val_main_v63_apply, val_main_v61_apply, val_main_v62_apply,
    val_main_v65_apply, val_main_v64_apply, i65]
  have e1 : ∀ k : Fin 256, (val_main_v47 (F := Ideal) x0 x1 x2 x3 x4 x5 x6 x7 x8) (lidx_main_v61 (ix2 n j) k) * x9 (ridx_main_v61 (ix2 n j) k)
      = (val_main_v47 (F := Ideal) x0 x1 x2 x3 x4 x5 x6 x7 x8) (ix2 n k) * x9 (ix2 k j) := fun k => by rw [l61, r61]
  have e2 : ∀ k : Fin 256, (val_main_v60 (F := Ideal) x0 x1 x2 x3 x4 x5 x6 x7 x8) (lidx_main_v62 (ix2 n j) k) * x10 (ridx_main_v62 (ix2 n j) k)
      = ((val_main_v57 (F := Ideal) x0 x1 x2 x3 x4 x5 x6 x7 x8) (ix2 n k) * val_main_v7 (F := Ideal) x2 (ix1 n)) * x10 (ix2 k j) := fun k => by
    rw [l62, r62, val_main_v60_apply, val_main_v59_apply, val_main_v58_apply, i59]
    rfl
  rw [Finset.sum_congr rfl (fun k _ => e1 k), Finset.sum_congr rfl (fun k _ => e2 k)]
  rfl

/-- Layer 3 of the reference, which has no clamp, at entry (n, j). -/
theorem ref_layer3 (n : Fin 100000) (j : Fin 64) :
    val_main_v66 (F := Ideal) x0 x1 x2 x3 x4 x5 x6 x7 x8 x9 x10 x11 (ix2 n j)
      = Sage.affine (cur2 (val_main_v47 (F := Ideal) x0 x1 x2 x3 x4 x5 x6 x7 x8)) (cur2 (val_main_v57 (F := Ideal) x0 x1 x2 x3 x4 x5 x6 x7 x8)) (fun n => val_main_v7 (F := Ideal) x2 (ix1 n)) (cur2 x9) (cur2 x10) (fun j => x11 (ix1 j)) n j := by
  rw [ref_affine3]
  rfl

end Cert.ReferenceIdeal.Chain

end
-- ==== Proof.RefReal.lean ====
/-
  Real entries through the reference's layers, and the last layer in its other order.

  When the node features, the weights and the biases are all real numbers, so are the neighbour sums (finite sums of
  reals from zero), the inverse degrees (one over a count that is at least one) and hence both hidden layers. For real
  entries the last layer may apply its neighbour weights to every node's row before the rows are summed along the
  edges and scaled: a finite sum of reals commutes with the product by a real, which on the extended reals is exactly
  what needs every entry finite.
-/
import proofs.«120476_j4020089389331_2_alg».proof.Proof.RefLayers

noncomputable section

namespace Cert.ReferenceIdeal.Chain

open Idealize.ShloMosaic Idealize.ShloMosaic.ValueIdx Cert.ReferenceIdeal Cert.ReferenceIdeal.Read
open Sage (cur2 selOf rowOf IsReal)

variable (x0 : FVec Ideal S100000x256 .f32) (x1 x2 : IVec S800000 32) (x3 x4 : FVec Ideal S256x256 .f32) (x5 : FVec Ideal S256 .f32)
  (x6 x7 : FVec Ideal S256x256 .f32) (x8 : FVec Ideal S256 .f32) (x9 x10 : FVec Ideal S256x64 .f32) (x11 : FVec Ideal S64 .f32)

/-- Every inverse degree is a real number. -/
theorem real_inv (n : Fin 100000) : IsReal (val_main_v7 (F := Ideal) x2 (ix1 n)) := by
  rw [inv_apply]; exact Sage.isReal_invdeg _ n

/-- The aggregation of real features is real. -/
theorem real_agg (h : FVec Ideal S100000x256 .f32) (hh : ∀ i, IsReal (h i)) (n : Fin 100000) (d : Fin 256) :
    IsReal (agg h x1 x2 (ix2 n d)) := by
  rw [agg_apply]; exact Sage.isReal_nsum _ _ _ (fun n d => hh _) n d

/-- The first hidden layer of real inputs is real. -/
theorem real_hidden1 (h0 : ∀ i, IsReal (x0 i)) (h3 : ∀ i, IsReal (x3 i)) (h4 : ∀ i, IsReal (x4 i)) (h5 : ∀ i, IsReal (x5 i))
    (i : S100000x256.Idx) : IsReal (val_main_v27 (F := Ideal) x0 x1 x2 x3 x4 x5 i) := by
  obtain ⟨n, j, rfl⟩ : ∃ (n : Fin 100000) (j : Fin 256), i = ix2 n j := ⟨i 0, i 1, eq_ix2 i⟩
  rw [ref_layer1]
  exact Sage.isReal_layer _ _ _ _ _ _ (fun i k => h0 _) (fun i k => by rw [v17_eq]; exact real_agg x1 x2 x0 h0 i k)
    (real_inv x2) (fun k j => h3 _) (fun k j => h4 _) (fun j => h5 _) n j

/-- The second hidden layer of real inputs is real. -/
theorem real_hidden2 (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i))
    (i : S100000x256.Idx) : IsReal (val_main_v47 (F := Ideal) x0 x1 x2 x3 x4 x5 x6 x7 x8 i) := by
  obtain ⟨n, j, rfl⟩ : ∃ (n : Fin 100000) (j : Fin 256), i = ix2 n j := ⟨i 0, i 1, eq_ix2 i⟩
  rw [ref_layer2]
  have hR1 := real_hidden1 x0 x1 x2 x3 x4 x5 h0 h3 h4 h5
  exact Sage.isReal_layer _ _ _ _ _ _ (fun i k => hR1 _) (fun i k => by rw [v37_eq]; exact real_agg x1 x2 _ hR1 i k)
    (real_inv x2) (fun k j => h6 _) (fun k j => h7 _) (fun j => h8 _) n j

/-- THE LAST LAYER IN ITS OTHER ORDER: own rows times the weights, plus the neighbour sum of the PROJECTED rows scaled by
    the inverse degree, plus the bias, is the reference's output entry — for real inputs. -/
theorem last_layer_eq (h0 : ∀ i, IsReal (x0 i)) (h3 : ∀ i, IsReal (x3 i)) (h4 : ∀ i, IsReal (x4 i)) (h5 : ∀ i, IsReal (x5 i))
    (h6 : ∀ i, IsReal (x6 i)) (h7 : ∀ i, IsReal (x7 i)) (h8 : ∀ i, IsReal (x8 i)) (h10 : ∀ i, IsReal (x10 i))
    (n : Fin 100000) (j : Fin 64) :
    Sage.affinePre (cur2 (val_main_v47 (F := Ideal) x0 x1 x2 x3 x4 x5 x6 x7 x8))
        (Sage.nsum (selOf (didx x2)) (rowOf (sidx x1)) (Sage.lin (cur2 (val_main_v47 (F := Ideal) x0 x1 x2 x3 x4 x5 x6 x7 x8)) (cur2 x10)))
        (fun n => val_main_v7 (F := Ideal) x2 (ix1 n)) (cur2 x9) (fun j => x11 (ix1 j)) n j
      = val_main_v66 (F := Ideal) x0 x1 x2 x3 x4 x5 x6 x7 x8 x9 x10 x11 (ix2 n j) := by
  rw [ref_layer3, v57_eq]
  have hagg : cur2 (agg (val_main_v47 (F := Ideal) x0 x1 x2 x3 x4 x5 x6 x7 x8) x1 x2)
      = Sage.nsum (selOf (didx x2)) (rowOf (sidx x1)) (cur2 (val_main_v47 (F := Ideal) x0 x1 x2 x3 x4 x5 x6 x7 x8)) :=
    funext fun n => funext fun d => agg_apply _ x1 x2 n d
  rw [hagg]
  exact Sage.affinePre_eq _ _ _ _ _ _ _ (fun n d => real_hidden2 x0 x1 x2 x3 x4 x5 x6 x7 x8 h0 h3 h4 h5 h6 h7 h8 _)
    (real_inv x2) (fun k j => h10 _) n j

end Cert.ReferenceIdeal.Chain

end
-- ==== Proof.LibKeepdims.lean ====
/-
  Column ("keepdims") layouts read at an index given by coordinates.

  A row statistic of a matrix (a row sum, a row maximum) is a vector `[a]`; to combine it with the matrix again it is
  first viewed as the one-column matrix `[a, 1]` and then repeated along the columns to `[a, b]`. A statistic of the
  whole matrix is a one-element vector `[1]`, viewed as `[1, 1]` and repeated down the rows to the column `[a, 1]`.
  And a matrix that is one block of a rank-4 array is the block `[1, 1, a, b]` with its two unit axes dropped, or
  the matrix with two unit axes put in front. Each lemma here says which ONE element of the operand such a view reads
  at an index written by coordinates: a shape cast keeps the row-major position, and a broadcast reads coordinate `0`
  on an axis of size one. They complement the leading-unit-axis casts and the row broadcast `[1, b] → [a, b]` of the
  library's layout lemmas; all are general in the sizes.
-/
import Idealize.ShloMosaic.Lib.ValueLayout

namespace Cert.Keepdims

open Idealize.ShloMosaic Idealize.ShloMosaic.ValueIdx

variable {α : Type}

/-! ## A vector as a one-column matrix, and the column repeated -/

/-- An `[a]` vector cast to the column `[a, 1]` reads, at `(i, u)`, the vector at `i`: the position `i · 1 + u` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One number as a `[1, 1]` matrix, repeated down a column -/

/-- A one-element vector `[1]` cast to `[1, 1]` reads its one element everywhere. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) := by
  obtain rfl : u = 0 := Subsingleton.elim _ _
  exact shapeCast_a_a1_apply x h 0 v

/-- A `[1, 1]` matrix broadcast to the column `[a, 1]` reads its one element in every row. -/
theorem broadcastTo_11_a1_apply {a : ℕ} (v : (⟨2, ![1, 1]⟩ : Shape).Idx → α)
    (h : (⟨2, ![1, 1]⟩ : Shape).Broadcasts ⟨2, ![a, 1]⟩) (p : Fin a) (u : Fin 1) :
    broadcastTo ⟨2, ![a, 1]⟩ v h (ix2 p u) = v (ix2 (0 : Fin 1) (0 : Fin 1)) := by
  obtain rfl : u = 0 := Subsingleton.elim _ _
  exact broadcastTo_1b_ab_apply v h p 0

/-! ## Two leading unit axes dropped from, or added to, a matrix -/

/-- A `[1, 1, a, b]` block cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add, Nat.add_zero])

/-- A matrix `[a, b]` cast to the block `[1, 1, a, b]` reads, at `(u, v, i, j)`, the matrix at `(i, j)`, whatever the
    two unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add, Nat.add_zero])

end Cert.Keepdims
-- ==== Proof.Bridge.lean ====
/-
  The kernels' whole-array functions in the reference's terms.

  The kernels take the inverse degrees as a column (the reference's vector shape-cast to [n, 1]), each bias as a row
  (the vector shape-cast to [1, c]) and the weights through a change of float format, which is the identity on the
  extended reals (so the weights are stated as they are). Read at an entry, a kernel layer of such arrays is the layer formula of the reference's own arrays;
  the projection is a matrix product; the last layer is the formula with the neighbour sums already projected. The
  kernel's 64-wide aggregation of the projected rows is, at an entry, the neighbour sum of those rows.
-/
import proofs.«120476_j4020089389331_2_alg».proof.Proof.Gen.KernelIdeal
import proofs.«120476_j4020089389331_2_alg».proof.Proof.KernelArr
import proofs.«120476_j4020089389331_2_alg».proof.Proof.RefReal
import proofs.«120476_j4020089389331_2_alg».proof.Proof.LibKeepdims
import Idealize.ShloMosaic.Lib.Pipeline.Value
import Idealize.ShloMosaic.Lib.ValueIdx

noncomputable section

namespace Cert.Bridge

open Idealize.ShloMosaic Idealize.ShloMosaic.ValueIdx
open Cert.KernelIdeal Cert.KernelIdeal.Gen Cert.KernelIdeal.Blocks
open Cert.ReferenceIdeal.Chain
open Sage (cur2 selOf rowOf)

/-- The inverse degrees as the column the kernels take. -/
def colOf (x2 : IVec S800000 32) : S100000x1.Idx → EReal :=
  shapeCast S100000x1 (Cert.ReferenceIdeal.Read.val_main_v7 (F := Ideal) x2) shapeCasts_S100000_S100000x1

theorem colOf_apply (x2 : IVec S800000 32) (n : Fin 100000) :
    colOf x2 (ix2 n 0) = Cert.ReferenceIdeal.Read.val_main_v7 (F := Ideal) x2 (ix1 n) :=
  Cert.Keepdims.shapeCast_a_a1_apply _ _ n 0

/-- A bias as the row the kernels take. -/
def rowOf256 (b : FVec Ideal S256 .f32) : S1x256.Idx → EReal := shapeCast S1x256 b shapeCasts_S256_S1x256
def rowOf64 (b : FVec Ideal S64 .f32) : S1x64.Idx → EReal := shapeCast S1x64 b shapeCasts_S64_S1x64

theorem rowOf256_apply (b : FVec Ideal S256 .f32) (j : Fin 256) : rowOf256 b (ix2 0 j) = b (ix1 j) :=
  (shapeCast_addUnit_apply ![256] b shapeCasts_S256_S1x256 (ix2 0 j)).trans
    (congrArg b (funext fun a => by match a with | ⟨0, _⟩ => rfl))
theorem rowOf64_apply (b : FVec Ideal S64 .f32) (j : Fin 64) : rowOf64 b (ix2 0 j) = b (ix1 j) :=
  (shapeCast_addUnit_apply ![64] b shapeCasts_S64_S1x64 (ix2 0 j)).trans
    (congrArg b (funext fun a => by match a with | ⟨0, _⟩ => rfl))

/-- A kernel layer of the kernels' array forms, at an entry, is the layer formula of the reference's arrays. -/
theorem layer_bridge (h a : S100000x256.Idx → EReal) (x2 : IVec S800000 32) (Ws Wn : FVec Ideal S256x256 .f32)
    (b : FVec Ideal S256 .f32) (n : Fin 100000) (j : Fin 256) :
    layerArr h a (colOf x2) Ws Wn (rowOf256 b) (ix2 n j)
      = Sage.layer (cur2 h) (cur2 a) (fun n => Cert.ReferenceIdeal.Read.val_main_v7 (F := Ideal) x2 (ix1 n)) (cur2 Ws) (cur2 Wn)
          (fun j => b (ix1 j)) n j := by
  have e1 : (fun n : Fin 100000 => colOf x2 (ix2 n 0)) = fun n => Cert.ReferenceIdeal.Read.val_main_v7 (F := Ideal) x2 (ix1 n) :=
    funext fun n => colOf_apply x2 n
  have e2 : (fun j : Fin 256 => rowOf256 b (ix2 0 j)) = fun j => b (ix1 j) := funext fun j => rowOf256_apply b j
  show Sage.layer (cur2 h) (cur2 a) (fun n => colOf x2 (ix2 n 0)) (cur2 Ws) (cur2 Wn) (fun j => rowOf256 b (ix2 0 j)) n j = _
  rw [e1, e2]

/-- The last kernel layer of the kernels' array forms, at an entry. -/
theorem pre_bridge (h : S100000x256.Idx → EReal) (p : S100000x64.Idx → EReal) (x2 : IVec S800000 32) (Ws : FVec Ideal S256x64 .f32)
    (b : FVec Ideal S64 .f32) (n : Fin 100000) (j : Fin 64) :
    preArr h p (colOf x2) Ws (rowOf64 b) (ix2 n j)
      = Sage.affinePre (cur2 h) (cur2 p) (fun n => Cert.ReferenceIdeal.Read.val_main_v7 (F := Ideal) x2 (ix1 n)) (cur2 Ws)
          (fun j => b (ix1 j)) n j := by
  have e1 : (fun n : Fin 100000 => colOf x2 (ix2 n 0)) = fun n => Cert.ReferenceIdeal.Read.val_main_v7 (F := Ideal) x2 (ix1 n) :=
    funext fun n => colOf_apply x2 n
  have e2 : (fun j : Fin 64 => rowOf64 b (ix2 0 j)) = fun j => b (ix1 j) := funext fun j => rowOf64_apply b j
  show Sage.affinePre (cur2 h) (cur2 p) (fun n => colOf x2 (ix2 n 0)) (cur2 Ws) (fun j => rowOf64 b (ix2 0 j)) n j = _
  rw [e1, e2]

/-- The projection of the kernels' array forms is the matrix product, as a function of two coordinates. -/
theorem proj_bridge (h : S100000x256.Idx → EReal) (W : FVec Ideal S256x64 .f32) :
    cur2 (projArr h W) = Sage.lin (cur2 h) (cur2 W) := rfl

/-- THE 64-WIDE AGGREGATION the idealized kernel's host code applies to the projected rows. -/
def agg64 (h : FVec Ideal S100000x64 .f32) (x1 x2 : IVec S800000 32) : FVec Ideal S100000x64 .f32 :=
  Host.scatterAdd scatter_S100000x64_S800000x1_S800000x64_1_0_0_1
    (broadcastInDim S100000x64 ![] bcast_S_S100000x64 (constant (F := Ideal) S_ .f32 0x00000000#32)) (didx x2)
    (Host.gather gather_S100000x64_S800000x1_S800000x64_1_0_n_n_0_1_164 h (sidx x1))

theorem zeros64 (i : S100000x64.Idx) :
    broadcastInDim S100000x64 ![] bcast_S_S100000x64 (constant (F := Ideal) S_ .f32 0x00000000#32) i = 0 := by
  rw [broadcastInDim_apply _ bcast_S_S100000x64 _ i ix0 (fun a => a.elim0)]
  exact Ideal.ofBits_zero_f32

theorem scatter64_rows : scatter_S100000x64_S800000x1_S800000x64_1_0_0_1
    = LibScatterAddRows.rowDims 100000 800000 64 scatter_S100000x64_S800000x1_S800000x64_1_0_0_1.wf := rfl
theorem gather64_rows : gather_S100000x64_S800000x1_S800000x64_1_0_n_n_0_1_164
    = Cert.RowGather.dims2 100000 64 800000 gather_S100000x64_S800000x1_S800000x64_1_0_n_n_0_1_164.wf := rfl

/-- At (n, d) it is the neighbour sum of the rows. -/
theorem agg64_apply (h : FVec Ideal S100000x64 .f32) (x1 x2 : IVec S800000 32) (n : Fin 100000) (d : Fin 64) :
    agg64 h x1 x2 (ix2 n d) = Sage.nsum (selOf (didx x2)) (rowOf (sidx x1)) (cur2 h) n d := by
  unfold agg64
  rw [scatter64_rows, gather64_rows]
  exact Sage.scatter_gather_apply _ _ _ zeros64 _ _ h n d

end Cert.Bridge

end
-- ==== Proof.KernelFold.lean ====
/-
  The idealized kernel's result array, traced through @main.

  From the launch memory: the first stretch of host operations leaves the aggregation of the node features, the inverse
  degrees as a column, the weights (their change of float format is the identity here) and the biases as rows; region 0 writes the first
  hidden layer, which is the reference's; the second stretch aggregates it; region 1 writes the second hidden layer,
  again the reference's; region 2 projects it by the last neighbour weights; the third stretch aggregates the
  projected rows; region 3 combines. Every buffer a region reads is traced back to where it was written: a stretch
  leaves the buffers it does not write as they were, a region leaves every buffer but its output as it found it.
-/
import proofs.«120476_j4020089389331_2_alg».proof.Proof.KernelIdealFrameP
import proofs.«120476_j4020089389331_2_alg».proof.Proof.KernelRegion0
import proofs.«120476_j4020089389331_2_alg».proof.Proof.KernelRegion1
import proofs.«120476_j4020089389331_2_alg».proof.Proof.KernelRegion2
import proofs.«120476_j4020089389331_2_alg».proof.Proof.KernelRegion3
import proofs.«120476_j4020089389331_2_alg».proof.Proof.Bridge
import Idealize.ShloMosaic.Lib.StableHlo.Run
import Idealize.ShloMosaic.Lib.Pipeline.Value
import Idealize.ShloMosaic.Lib.ValueIdx

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen Cert.KernelIdeal.GenP Cert.KernelIdeal.Blocks
open Cert.Bridge
open Cert.ReferenceIdeal.Chain (agg)

variable (m : (ℓ : Loc nD τ sig) → Buf (Elt Ideal) ℓ) (ρ : Dev nD → PrngReg) (c : Dev nD)

/-! ## The two programs' dimension numbers are the same records -/

theorem scatter_same : scatter_S100000x256_S800000x1_S800000x256_1_0_0_1
    = Cert.ReferenceIdeal.scatter_S100000x256_S800000x1_S800000x256_1_0_0_1 := rfl
theorem gather_same : gather_S100000x256_S800000x1_S800000x256_1_0_n_n_0_1_1256
    = Cert.ReferenceIdeal.gather_S100000x256_S800000x1_S800000x256_1_0_n_n_0_1_1256 := rfl
theorem count_same : scatter_S100000_S800000x1_S800000_n_0_0_1
    = Cert.ReferenceIdeal.scatter_S100000_S800000x1_S800000_n_0_0_1 := rfl

/-! ## After the first stretch -/

theorem s1_arg0 : (V1 m ρ c main_arg0 : S100000x256.Idx → EReal) = (m ((c : Thread nD τ).loc main_arg0)) := by
  show StableHlo.after hostOps0 (W0 m ρ c) (Proc.devRef .tc main_arg0) = _
  after_results_simp
theorem s1_arg1 : (W1 m ρ c (Proc.devRef .tc main_arg1) : S800000.Idx → BitVec 32) = (m ((c : Thread nD τ).loc main_arg1)) := by
  show StableHlo.after hostOps0 (W0 m ρ c) (Proc.devRef .tc main_arg1) = _
  after_results_simp
theorem s1_arg2 : (W1 m ρ c (Proc.devRef .tc main_arg2) : S800000.Idx → BitVec 32) = (m ((c : Thread nD τ).loc main_arg2)) := by
  show StableHlo.after hostOps0 (W0 m ρ c) (Proc.devRef .tc main_arg2) = _
  after_results_simp
theorem s1_agg : (V1 m ρ c main_v27 : S100000x256.Idx → EReal) = agg (m ((c : Thread nD τ).loc main_arg0)) (m ((c : Thread nD τ).loc main_arg1)) (m ((c : Thread nD τ).loc main_arg2)) := by
  show StableHlo.after hostOps0 (W0 m ρ c) (Proc.devRef .tc main_v27) = _
  after_results_simp
  rw [scatter_same, gather_same]
  rfl
theorem s1_inv : (V1 m ρ c main_v8 : S100000x1.Idx → EReal) = colOf (m ((c : Thread nD τ).loc main_arg2)) := by
  show StableHlo.after hostOps0 (W0 m ρ c) (Proc.devRef .tc main_v8) = _
  after_results_simp
  rw [count_same]
  rfl
theorem s1_v9 : (V1 m ρ c main_v9 : S256x256.Idx → EReal) = ((m ((c : Thread nD τ).loc main_arg3)) : S256x256.Idx → EReal) := by
  show StableHlo.after hostOps0 (W0 m ρ c) (Proc.devRef .tc main_v9) = _
  after_results_simp
  rfl
theorem s1_v10 : (V1 m ρ c main_v10 : S256x256.Idx → EReal) = ((m ((c : Thread nD τ).loc main_arg4)) : S256x256.Idx → EReal) := by
  show StableHlo.after hostOps0 (W0 m ρ c) (Proc.devRef .tc main_v10) = _
  after_results_simp
  rfl
theorem s1_v12 : (V1 m ρ c main_v12 : S256x256.Idx → EReal) = ((m ((c : Thread nD τ).loc main_arg6)) : S256x256.Idx → EReal) := by
  show StableHlo.after hostOps0 (W0 m ρ c) (Proc.devRef .tc main_v12) = _
  after_results_simp
  rfl
theorem s1_v13 : (V1 m ρ c main_v13 : S256x256.Idx → EReal) = ((m ((c : Thread nD τ).loc main_arg7)) : S256x256.Idx → EReal) := by
  show StableHlo.after hostOps0 (W0 m ρ c) (Proc.devRef .tc main_v13) = _
  after_results_simp
  rfl
theorem s1_v15 : (V1 m ρ c main_v15 : S256x64.Idx → EReal) = ((m ((c : Thread nD τ).loc main_arg9)) : S256x64.Idx → EReal) := by
  show StableHlo.after hostOps0 (W0 m ρ c) (Proc.devRef .tc main_v15) = _
  after_results_simp
  rfl
theorem s1_v16 : (V1 m ρ c main_v16 : S256x64.Idx → EReal) = ((m ((c : Thread nD τ).loc main_arg10)) : S256x64.Idx → EReal) := by
  show StableHlo.after hostOps0 (W0 m ρ c) (Proc.devRef .tc main_v16) = _
  after_results_simp
  rfl
theorem s1_v11 : (V1 m ρ c main_v11 : S1x256.Idx → EReal) = rowOf256 (m ((c : Thread nD τ).loc main_arg5)) := by
  show StableHlo.after hostOps0 (W0 m ρ c) (Proc.devRef .tc main_v11) = _
  after_results_simp
  rfl
theorem s1_v14 : (V1 m ρ c main_v14 : S1x256.Idx → EReal) = rowOf256 (m ((c : Thread nD τ).loc main_arg8)) := by
  show StableHlo.after hostOps0 (W0 m ρ c) (Proc.devRef .tc main_v14) = _
  after_results_simp
  rfl
theorem s1_v17 : (V1 m ρ c main_v17 : S1x64.Idx → EReal) = rowOf64 (m ((c : Thread nD τ).loc main_arg11)) := by
  show StableHlo.after hostOps0 (W0 m ρ c) (Proc.devRef .tc main_v17) = _
  after_results_simp
  rfl

/-! ## After region 0: its output is the reference's first hidden layer -/

theorem w2_arg1 : (W2 m ρ c (Proc.devRef .tc main_arg1) : S800000.Idx → BitVec 32) = (m ((c : Thread nD τ).loc main_arg1)) :=
  (W2_of_ne m ρ c main_arg1 (by decide)).trans (s1_arg1 m ρ c)
theorem w2_arg2 : (W2 m ρ c (Proc.devRef .tc main_arg2) : S800000.Idx → BitVec 32) = (m ((c : Thread nD τ).loc main_arg2)) :=
  (W2_of_ne m ρ c main_arg2 (by decide)).trans (s1_arg2 m ρ c)
theorem w2_v12 : (W2 m ρ c (Proc.devRef .tc main_v12) : S256x256.Idx → EReal) = ((m ((c : Thread nD τ).loc main_arg6)) : S256x256.Idx → EReal) :=
  (W2_of_ne m ρ c main_v12 (by decide)).trans (s1_v12 m ρ c)
theorem w2_v13 : (W2 m ρ c (Proc.devRef .tc main_v13) : S256x256.Idx → EReal) = ((m ((c : Thread nD τ).loc main_arg7)) : S256x256.Idx → EReal) :=
  (W2_of_ne m ρ c main_v13 (by decide)).trans (s1_v13 m ρ c)
theorem w2_v15 : (W2 m ρ c (Proc.devRef .tc main_v15) : S256x64.Idx → EReal) = ((m ((c : Thread nD τ).loc main_arg9)) : S256x64.Idx → EReal) :=
  (W2_of_ne m ρ c main_v15 (by decide)).trans (s1_v15 m ρ c)
theorem w2_v16 : (W2 m ρ c (Proc.devRef .tc main_v16) : S256x64.Idx → EReal) = ((m ((c : Thread nD τ).loc main_arg10)) : S256x64.Idx → EReal) :=
  (W2_of_ne m ρ c main_v16 (by decide)).trans (s1_v16 m ρ c)
theorem w2_v14 : (W2 m ρ c (Proc.devRef .tc main_v14) : S1x256.Idx → EReal) = rowOf256 (m ((c : Thread nD τ).loc main_arg8)) :=
  (W2_of_ne m ρ c main_v14 (by decide)).trans (s1_v14 m ρ c)
theorem w2_v17 : (W2 m ρ c (Proc.devRef .tc main_v17) : S1x64.Idx → EReal) = rowOf64 (m ((c : Thread nD τ).loc main_arg11)) :=
  (W2_of_ne m ρ c main_v17 (by decide)).trans (s1_v17 m ρ c)
theorem w2_v8 : (W2 m ρ c (Proc.devRef .tc main_v8) : S100000x1.Idx → EReal) = colOf (m ((c : Thread nD τ).loc main_arg2)) :=
  (W2_arr m ρ c 2).trans (((dat0 (V1 m ρ) c).arrAt_in 2 rfl _).trans ((A_eq0 (V1 m ρ) c 2).trans (s1_inv m ρ c)))

theorem w2_out : (W2 m ρ c (Proc.devRef .tc main_v28) : S100000x256.Idx → EReal) = (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W2_arr m ρ c 6).trans ((final0 (V1 m ρ) c).trans ?_)
  show layerArr (V1 m ρ c main_arg0) (V1 m ρ c main_v27) (V1 m ρ c main_v8) (V1 m ρ c main_v9) (V1 m ρ c main_v10) (V1 m ρ c main_v11) = _
  rw [s1_arg0, s1_agg, s1_inv, s1_v9, s1_v10, s1_v11]
  funext i
  obtain ⟨n, j, rfl⟩ : ∃ (n : Fin 100000) (j : Fin 256), i = ix2 n j := ⟨i 0, i 1, eq_ix2 i⟩
  rw [layer_bridge, Cert.ReferenceIdeal.Chain.ref_layer1, Cert.ReferenceIdeal.Chain.v17_eq]

/-! ## After the second stretch -/

theorem s3_h : (V3 m ρ c main_v28 : S100000x256.Idx → EReal) = (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show StableHlo.after hostOps1 (W2 m ρ c) (Proc.devRef .tc main_v28) = _
  after_results_simp
  exact w2_out m ρ c
theorem s3_arg1 : (W3 m ρ c (Proc.devRef .tc main_arg1) : S800000.Idx → BitVec 32) = (m ((c : Thread nD τ).loc main_arg1)) := by
  show StableHlo.after hostOps1 (W2 m ρ c) (Proc.devRef .tc main_arg1) = _
  after_results_simp
  exact w2_arg1 m ρ c
theorem s3_arg2 : (W3 m ρ c (Proc.devRef .tc main_arg2) : S800000.Idx → BitVec 32) = (m ((c : Thread nD τ).loc main_arg2)) := by
  show StableHlo.after hostOps1 (W2 m ρ c) (Proc.devRef .tc main_arg2) = _
  after_results_simp
  exact w2_arg2 m ρ c
theorem s3_agg : (V3 m ρ c main_v38 : S100000x256.Idx → EReal) = agg (Cert.ReferenceIdeal.Read.val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  show StableHlo.after hostOps1 (W2 m ρ c) (Proc.devRef .tc main_v38) = _
  after_results_simp
  rw [w2_out, w2_arg1, w2_arg2, scatter_same, gather_same]
  rfl
theorem s3_inv : (V3 m ρ c main_v8 : S100000x1.Idx → EReal) = colOf (m ((c : Thread nD τ).loc main_arg2)) := by
  show StableHlo.after hostOps1 (W2 m ρ c) (Proc.devRef .tc main_v8) = _
  after_results_simp
  exact w2_v8 m ρ c
theorem s3_v12 : (V3 m ρ c main_v12 : S256x256.Idx → EReal) = ((m ((c : Thread nD τ).loc main_arg6)) : S256x256.Idx → EReal) := by
  show StableHlo.after hostOps1 (W2 m ρ c) (Proc.devRef .tc main_v12) = _
  after_results_simp
  exact w2_v12 m ρ c
theorem s3_v13 : (V3 m ρ c main_v13 : S256x256.Idx → EReal) = ((m ((c : Thread nD τ).loc main_arg7)) : S256x256.Idx → EReal) := by
  show StableHlo.after hostOps1 (W2 m ρ c) (Proc.devRef .tc main_v13) = _
  after_results_simp
  exact w2_v13 m ρ c
theorem s3_v15 : (V3 m ρ c main_v15 : S256x64.Idx → EReal) = ((m ((c : Thread nD τ).loc main_arg9)) : S256x64.Idx → EReal) := by
  show StableHlo.after hostOps1 (W2 m ρ c) (Proc.devRef .tc main_v15) = _
  after_results_simp
  exact w2_v15 m ρ c
theorem s3_v16 : (V3 m ρ c main_v16 : S256x64.Idx → EReal) = ((m ((c : Thread nD τ).loc main_arg10)) : S256x64.Idx → EReal) := by
  show StableHlo.after hostOps1 (W2 m ρ c) (Proc.devRef .tc main_v16) = _
  after_results_simp
  exact w2_v16 m ρ c
theorem s3_v14 : (V3 m ρ c main_v14 : S1x256.Idx → EReal) = rowOf256 (m ((c : Thread nD τ).loc main_arg8)) := by
  show StableHlo.after hostOps1 (W2 m ρ c) (Proc.devRef .tc main_v14) = _
  after_results_simp
  exact w2_v14 m ρ c
theorem s3_v17 : (V3 m ρ c main_v17 : S1x64.Idx → EReal) = rowOf64 (m ((c : Thread nD τ).loc main_arg11)) := by
  show StableHlo.after hostOps1 (W2 m ρ c) (Proc.devRef .tc main_v17) = _
  after_results_simp
  exact w2_v17 m ρ c

/-! ## After region 1: its output is the reference's second hidden layer -/

theorem w4_arg1 : (W4 m ρ c (Proc.devRef .tc main_arg1) : S800000.Idx → BitVec 32) = (m ((c : Thread nD τ).loc main_arg1)) :=
  (W4_of_ne m ρ c main_arg1 (by decide)).trans (s3_arg1 m ρ c)
theorem w4_arg2 : (W4 m ρ c (Proc.devRef .tc main_arg2) : S800000.Idx → BitVec 32) = (m ((c : Thread nD τ).loc main_arg2)) :=
  (W4_of_ne m ρ c main_arg2 (by decide)).trans (s3_arg2 m ρ c)
theorem w4_v15 : (W4 m ρ c (Proc.devRef .tc main_v15) : S256x64.Idx → EReal) = ((m ((c : Thread nD τ).loc main_arg9)) : S256x64.Idx → EReal) :=
  (W4_of_ne m ρ c main_v15 (by decide)).trans (s3_v15 m ρ c)
theorem w4_v16 : (W4 m ρ c (Proc.devRef .tc main_v16) : S256x64.Idx → EReal) = ((m ((c : Thread nD τ).loc main_arg10)) : S256x64.Idx → EReal) :=
  (W4_of_ne m ρ c main_v16 (by decide)).trans (s3_v16 m ρ c)
theorem w4_v17 : (W4 m ρ c (Proc.devRef .tc main_v17) : S1x64.Idx → EReal) = rowOf64 (m ((c : Thread nD τ).loc main_arg11)) :=
  (W4_of_ne m ρ c main_v17 (by decide)).trans (s3_v17 m ρ c)
theorem w4_v8 : (W4 m ρ c (Proc.devRef .tc main_v8) : S100000x1.Idx → EReal) = colOf (m ((c : Thread nD τ).loc main_arg2)) :=
  (W4_arr m ρ c 2).trans (((dat1 (V3 m ρ) c).arrAt_in 2 rfl _).trans ((A_eq1 (V3 m ρ) c 2).trans (s3_inv m ρ c)))

theorem w4_out : (W4 m ρ c (Proc.devRef .tc main_v39) : S100000x256.Idx → EReal) = (Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W4_arr m ρ c 6).trans ((final1 (V3 m ρ) c).trans ?_)
  show layerArr (V3 m ρ c main_v28) (V3 m ρ c main_v38) (V3 m ρ c main_v8) (V3 m ρ c main_v12) (V3 m ρ c main_v13) (V3 m ρ c main_v14) = _
  rw [s3_h, s3_agg, s3_inv, s3_v12, s3_v13, s3_v14]
  funext i
  obtain ⟨n, j, rfl⟩ : ∃ (n : Fin 100000) (j : Fin 256), i = ix2 n j := ⟨i 0, i 1, eq_ix2 i⟩
  rw [layer_bridge, Cert.ReferenceIdeal.Chain.ref_layer2, Cert.ReferenceIdeal.Chain.v37_eq]

/-! ## After region 2: the second hidden layer projected by the last neighbour weights -/

theorem w5_arg1 : (W5 m ρ c (Proc.devRef .tc main_arg1) : S800000.Idx → BitVec 32) = (m ((c : Thread nD τ).loc main_arg1)) :=
  (W5_of_ne m ρ c main_arg1 (by decide)).trans (w4_arg1 m ρ c)
theorem w5_arg2 : (W5 m ρ c (Proc.devRef .tc main_arg2) : S800000.Idx → BitVec 32) = (m ((c : Thread nD τ).loc main_arg2)) :=
  (W5_of_ne m ρ c main_arg2 (by decide)).trans (w4_arg2 m ρ c)
theorem w5_v15 : (W5 m ρ c (Proc.devRef .tc main_v15) : S256x64.Idx → EReal) = ((m ((c : Thread nD τ).loc main_arg9)) : S256x64.Idx → EReal) :=
  (W5_of_ne m ρ c main_v15 (by decide)).trans (w4_v15 m ρ c)
theorem w5_v17 : (W5 m ρ c (Proc.devRef .tc main_v17) : S1x64.Idx → EReal) = rowOf64 (m ((c : Thread nD τ).loc main_arg11)) :=
  (W5_of_ne m ρ c main_v17 (by decide)).trans (w4_v17 m ρ c)
theorem w5_v8 : (W5 m ρ c (Proc.devRef .tc main_v8) : S100000x1.Idx → EReal) = colOf (m ((c : Thread nD τ).loc main_arg2)) :=
  (W5_of_ne m ρ c main_v8 (by decide)).trans (w4_v8 m ρ c)
theorem w5_h : (W5 m ρ c (Proc.devRef .tc main_v39) : S100000x256.Idx → EReal) = (Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W5_arr m ρ c 0).trans (((dat2 (V4 m ρ) c).arrAt_in 0 rfl _).trans ((A_eq2 (V4 m ρ) c 0).trans (w4_out m ρ c)))

theorem w5_out : (W5 m ρ c (Proc.devRef .tc main_v40) : S100000x64.Idx → EReal) = (projArr (Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) ((m ((c : Thread nD τ).loc main_arg10)) : S256x64.Idx → EReal)) := by
  refine (W5_arr m ρ c 2).trans ((final2 (V4 m ρ) c).trans ?_)
  show projArr (W4 m ρ c (Proc.devRef .tc main_v39)) (W4 m ρ c (Proc.devRef .tc main_v16)) = _
  rw [w4_out, w4_v16]

/-! ## After the third stretch -/

theorem s6_h : (V6 m ρ c main_v39 : S100000x256.Idx → EReal) = (Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps3 (W5 m ρ c) (Proc.devRef .tc main_v39) = _
  after_results_simp
  exact w5_h m ρ c
theorem s6_agg : (V6 m ρ c main_v50 : S100000x64.Idx → EReal) = agg64 (projArr (Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) ((m ((c : Thread nD τ).loc main_arg10)) : S256x64.Idx → EReal)) (m ((c : Thread nD τ).loc main_arg1)) (m ((c : Thread nD τ).loc main_arg2)) := by
  show StableHlo.after hostOps3 (W5 m ρ c) (Proc.devRef .tc main_v50) = _
  after_results_simp
  rw [w5_out, w5_arg1, w5_arg2]
  rfl
theorem s6_inv : (V6 m ρ c main_v8 : S100000x1.Idx → EReal) = colOf (m ((c : Thread nD τ).loc main_arg2)) := by
  show StableHlo.after hostOps3 (W5 m ρ c) (Proc.devRef .tc main_v8) = _
  after_results_simp
  exact w5_v8 m ρ c
theorem s6_v15 : (V6 m ρ c main_v15 : S256x64.Idx → EReal) = ((m ((c : Thread nD τ).loc main_arg9)) : S256x64.Idx → EReal) := by
  show StableHlo.after hostOps3 (W5 m ρ c) (Proc.devRef .tc main_v15) = _
  after_results_simp
  exact w5_v15 m ρ c
theorem s6_v17 : (V6 m ρ c main_v17 : S1x64.Idx → EReal) = rowOf64 (m ((c : Thread nD τ).loc main_arg11)) := by
  show StableHlo.after hostOps3 (W5 m ρ c) (Proc.devRef .tc main_v17) = _
  after_results_simp
  exact w5_v17 m ρ c

/-! ## After region 3: the result array -/

theorem w7_out : (W7 m ρ c (Proc.devRef .tc main_v51) : S100000x64.Idx → EReal)
    = preArr (Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (agg64 (projArr (Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) ((m ((c : Thread nD τ).loc main_arg10)) : S256x64.Idx → EReal)) (m ((c : Thread nD τ).loc main_arg1)) (m ((c : Thread nD τ).loc main_arg2))) (colOf (m ((c : Thread nD τ).loc main_arg2))) ((m ((c : Thread nD τ).loc main_arg9)) : S256x64.Idx → EReal) (rowOf64 (m ((c : Thread nD τ).loc main_arg11))) := by
  refine (W7_arr m ρ c 5).trans ((final3 (V6 m ρ) c).trans ?_)
  show preArr (V6 m ρ c main_v39) (V6 m ρ c main_v50) (V6 m ρ c main_v8) (V6 m ρ c main_v15) (V6 m ρ c main_v17) = _
  rw [s6_h, s6_agg, s6_inv, s6_v15, s6_v17]

/-! ## The result is the reference's, for real inputs -/

/-- THE IDEALIZED KERNEL'S RESULT ARRAY is the reference's output of the same arguments, when every float argument the
    last layer's reordering touches holds real numbers. -/
theorem result_eq (h0 : ∀ i, Sage.IsReal ((m ((c : Thread nD τ).loc main_arg0)) i))
    (h3 : ∀ i, Sage.IsReal ((m ((c : Thread nD τ).loc main_arg3)) i))
    (h4 : ∀ i, Sage.IsReal ((m ((c : Thread nD τ).loc main_arg4)) i))
    (h5 : ∀ i, Sage.IsReal ((m ((c : Thread nD τ).loc main_arg5)) i))
    (h6 : ∀ i, Sage.IsReal ((m ((c : Thread nD τ).loc main_arg6)) i))
    (h7 : ∀ i, Sage.IsReal ((m ((c : Thread nD τ).loc main_arg7)) i))
    (h8 : ∀ i, Sage.IsReal ((m ((c : Thread nD τ).loc main_arg8)) i))
    (h10 : ∀ i, Sage.IsReal ((m ((c : Thread nD τ).loc main_arg10)) i)) :
    (W7 m ρ c (Proc.devRef .tc main_v51) : S100000x64.Idx → EReal)
      = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [w7_out]
  funext i
  obtain ⟨n, j, rfl⟩ : ∃ (n : Fin 100000) (j : Fin 64), i = ix2 n j := ⟨i 0, i 1, eq_ix2 i⟩
  rw [pre_bridge]
  have e : Sage.cur2 (agg64 (projArr (Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) ((m ((c : Thread nD τ).loc main_arg10)) : S256x64.Idx → EReal)) (m ((c : Thread nD τ).loc main_arg1)) (m ((c : Thread nD τ).loc main_arg2)))
      = Sage.nsum (Sage.selOf (Cert.ReferenceIdeal.Chain.didx (m ((c : Thread nD τ).loc main_arg2)))) (Sage.rowOf (Cert.ReferenceIdeal.Chain.sidx (m ((c : Thread nD τ).loc main_arg1)))) (Sage.cur2 (projArr (Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) ((m ((c : Thread nD τ).loc main_arg10)) : S256x64.Idx → EReal))) :=
    funext fun n => funext fun d => agg64_apply _ _ _ n d
  rw [e, proj_bridge]
  exact Cert.ReferenceIdeal.Chain.last_layer_eq _ _ _ _ _ _ _ _ _ _ _ _ h0 h3 h4 h5 h6 h7 h8 h10 n j

end Cert.KernelIdeal.Fold

end
-- ==== Proof.lean ====
/-
  A three-layer mean-aggregating graph network: a kernel pipeline against its plain reference, on the extended reals.

  Both programs compute every node's inverse degree (one over its number of incoming edges, that number clamped below
  at one) and three layers; a layer multiplies a node's own features by one weight matrix, the sum of its neighbours'
  features scaled by its inverse degree by another, adds the two and a bias; the first two layers clamp at zero. The
  kernel program does the dense part of each layer in a tiled kernel (50 blocks of 2000 rows) and leaves gathering and
  summing along the edges to host code, exactly as the reference does them. Its first two layers are, entry by entry,
  the reference's. In the last layer it multiplies every node's features by the neighbour weights BEFORE they are summed
  along the edges and scaled, where the reference sums, scales and then multiplies. The two agree because a finite sum
  of real numbers commutes with multiplication by a real number; on the extended reals that needs every entry to be a
  real number, which is what the precondition gives for the inputs and what is carried through the neighbour sums, the
  inverse degrees and both hidden layers.

  The idealized kernel's run is read off its frame: its result array is what the last kernel region leaves, traced
  back through the three stretches of host operations and the four regions to the arguments (KernelFold), each region's
  output array being one whole-array function of the arrays the region finds (KernelRegion0 … 3). The reference's run
  and its operations read at an entry are imported as generated; RefLayers and RefReal restate them as layers and carry
  the realness; LibSage holds the algebra. Nothing was rewritten by the ideal pass, so the idealization claim is trivial.
-/
import proofs.«120476_j4020089389331_2_alg».proof.Defs
import proofs.«120476_j4020089389331_2_alg».proof.Proof.Gen.Kernel
import proofs.«120476_j4020089389331_2_alg».proof.Proof.KernelFrameP
import proofs.«120476_j4020089389331_2_alg».proof.Proof.Gen.KernelIdeal
import proofs.«120476_j4020089389331_2_alg».proof.Proof.KernelIdealFrameP
import proofs.«120476_j4020089389331_2_alg».proof.Proof.Gen.ReferenceIdeal
import proofs.«120476_j4020089389331_2_alg».proof.Proof.Gen.Pre_finite_inputs
import proofs.«120476_j4020089389331_2_alg».proof.Proof.Gen.ReferenceIdeal.Run
import proofs.«120476_j4020089389331_2_alg».proof.Proof.Gen.ReferenceIdeal.Read
import proofs.«120476_j4020089389331_2_alg».proof.Proof.Finite
import proofs.«120476_j4020089389331_2_alg».proof.Proof.KernelRun
import proofs.«120476_j4020089389331_2_alg».proof.Proof.KernelFold
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_kernel : Cert.frame_Kernel (hKernel := Cert.Kernel.Gen.facts) (hPre_finite_inputs := Cert.Pre_finite_inputs.Gen.facts) :=
  fun m ρ _ => Cert.Kernel.GenP.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The reference is host operations only: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, both idealized programs end with the reference's output of those
    arguments in their result arrays: the kernel's by the trace of its result array through @main, for inputs the
    precondition makes real; the reference's by its generated run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Read.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩) (Cert.KernelIdeal.GenP.run_named m ρ)
    obtain ⟨h0, h3, h4, h5, h6, h7, h8, h9, h10, h11⟩ := Cert.Finite.real_of_fn _ _ _ _ _ _ _ _ _ _ _ _ (hpre c)
    exact Cert.KernelIdeal.Fold.result_eq m ρ c h0 h3 h4 h5 h6 h7 h8 h10
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6, g7, g8, g9, g10, g11⟩ := hagree c
    rw [Cert.ReferenceIdeal.Read.val_main_v66_eq, g0, g1, g2, g3, g4, g5, g6, g7, g8, g9, g10, g11]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
